-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x300x2048 : Shape := ⟨4, ![32, 3, 300, 2048]⟩
abbrev S_ : Shape := ⟨0, ![]⟩
abbrev S32x3x2048 : Shape := ⟨3, ![32, 3, 2048]⟩

class Facts : Prop where
  bcast_S_S32x3x300x2048 : S_.BroadcastsInDim S32x3x300x2048 (![] : Fin 0 → Fin S32x3x300x2048.rank)
  reducesTo_S32x3x300x2048_S_d0_1_2_3 : S32x3x300x2048.ReducesTo [0, 1, 2, 3] S_
  h_S_ : 0 < S_.numel
  reducesTo_S32x3x300x2048_S32x3x2048_d2 : S32x3x300x2048.ReducesTo [2] S32x3x2048
  bcast_S_S32x3x2048 : S_.BroadcastsInDim S32x3x2048 (![] : Fin 0 → Fin S32x3x2048.rank)
  reducesTo_S32x3x2048_S_d0_1_2 : S32x3x2048.ReducesTo [0, 1, 2] S_

variable [Facts]

def fn_part1 {F : FTy → Type} [FloatOps F] (main_v14 : IVec S_ 1) (main_v15 : FVec F S32x3x300x2048 .f32) (main_cst_5 : FVec F S_ .f32) : IVec S_ 1 :=
  let main_v16 : FVec F S32x3x2048 .f32 := (fun x v => Host.reduceAdd x v reducesTo_S32x3x300x2048_S32x3x2048_d2 h_S_) main_v15 main_cst_5
  let main_cst_6 : FVec F S_ .f32 := constant S_ .f32 0x00000000#32
  let main_v17 : FVec F S32x3x2048 .f32 := broadcastInDim S32x3x2048 ![] bcast_S_S32x3x2048 main_cst_6
  let main_v18 : IVec S32x3x2048 1 := cmpf .ogt main_v16 main_v17
  let main_c_7 : IVec S_ 1 := constantI S_ 1 1#1
  let main_v19 : IVec S_ 1 := (fun x v => Host.reduce IntOp.andi x v reducesTo_S32x3x2048_S_d0_1_2 h_S_) main_v18 main_c_7
  let main_v20 : IVec S_ 1 := andi main_v14 main_v19
  main_v20

def fn {F : FTy → Type} [FloatOps F] (main_arg0 : FVec F S32x3x300x2048 .f32) (main_arg1 : FVec F S32x3x300x2048 .f32) : IVec S_ 1 :=
  let main_v0 : FVec F S32x3x300x2048 .f32 := Host.absf main_arg0
  let main_cst : FVec F S_ .f32 := constant S_ .f32 0x7F800000#32
  let main_v1 : FVec F S32x3x300x2048 .f32 := broadcastInDim S32x3x300x2048 ![] bcast_S_S32x3x300x2048 main_cst
  let main_v2 : IVec S32x3x300x2048 1 := cmpf .olt main_v0 main_v1
  let main_c : IVec S_ 1 := constantI S_ 1 1#1
  let main_v3 : IVec S_ 1 := (fun x v => Host.reduce IntOp.andi x v reducesTo_S32x3x300x2048_S_d0_1_2_3 h_S_) main_v2 main_c
  let main_v4 : FVec F S32x3x300x2048 .f32 := Host.absf main_arg1
  let main_cst_0 : FVec F S_ .f32 := constant S_ .f32 0x7F800000#32
  let main_v5 : FVec F S32x3x300x2048 .f32 := broadcastInDim S32x3x300x2048 ![] bcast_S_S32x3x300x2048 main_cst_0
  let main_v6 : IVec S32x3x300x2048 1 := cmpf .olt main_v4 main_v5
  let main_c_1 : IVec S_ 1 := constantI S_ 1 1#1
  let main_v7 : IVec S_ 1 := (fun x v => Host.reduce IntOp.andi x v reducesTo_S32x3x300x2048_S_d0_1_2_3 h_S_) main_v6 main_c_1
  let main_v8 : IVec S_ 1 := andi main_v3 main_v7
  let main_v9 : FVec F S32x3x300x2048 .f32 := mulf main_arg0 main_arg0
  let main_cst_2 : FVec F S_ .f32 := constant S_ .f32 0x00000000#32
  let main_v10 : FVec F S32x3x2048 .f32 := (fun x v => Host.reduceAdd x v reducesTo_S32x3x300x2048_S32x3x2048_d2 h_S_) main_v9 main_cst_2
  let main_cst_3 : FVec F S_ .f32 := constant S_ .f32 0x00000000#32
  let main_v11 : FVec F S32x3x2048 .f32 := broadcastInDim S32x3x2048 ![] bcast_S_S32x3x2048 main_cst_3
  let main_v12 : IVec S32x3x2048 1 := cmpf .ogt main_v10 main_v11
  let main_c_4 : IVec S_ 1 := constantI S_ 1 1#1
  let main_v13 : IVec S_ 1 := (fun x v => Host.reduce IntOp.andi x v reducesTo_S32x3x2048_S_d0_1_2 h_S_) main_v12 main_c_4
  let main_v14 : IVec S_ 1 := andi main_v8 main_v13
  let main_v15 : FVec F S32x3x300x2048 .f32 := mulf main_arg1 main_arg1
  let main_cst_5 : FVec F S_ .f32 := constant S_ .f32 0x00000000#32
  fn_part1 (F := F) main_v14 main_v15 main_cst_5
-- ==== Kernel.lean ====
abbrev S32x3x300x2048 : Shape := ⟨4, ![32, 3, 300, 2048]⟩
abbrev S96x300x2048 : Shape := ⟨3, ![96, 300, 2048]⟩
abbrev S96x2048 : Shape := ⟨2, ![96, 2048]⟩
abbrev S8x300x512 : Shape := ⟨3, ![8, 300, 512]⟩
abbrev S8x512 : Shape := ⟨2, ![8, 512]⟩
abbrev S96x2048x1 : Shape := ⟨3, ![96, 2048, 1]⟩
abbrev S96x2048x3 : Shape := ⟨3, ![96, 2048, 3]⟩
abbrev S32x6144x3 : Shape := ⟨3, ![32, 6144, 3]⟩

abbrev nBuf : Space → Nat
  | .hbm => 12
  | .vmem => 10
  | .smem => 0
  | _ => 0

abbrev bufTy : (tb : Table) → Fin (tcTables nBuf tb) → BufTy
  | .hbm, ⟨0, _⟩ => ⟨S32x3x300x2048, .f32⟩
  | .hbm, ⟨1, _⟩ => ⟨S32x3x300x2048, .f32⟩
  | .hbm, ⟨2, _⟩ => ⟨S96x300x2048, .f32⟩
  | .hbm, ⟨3, _⟩ => ⟨S96x300x2048, .f32⟩
  | .hbm, ⟨4, _⟩ => ⟨S96x2048, .f32⟩
  | .hbm, ⟨5, _⟩ => ⟨S96x2048, .f32⟩
  | .hbm, ⟨6, _⟩ => ⟨S96x2048, .f32⟩
  | .hbm, ⟨7, _⟩ => ⟨S96x2048x1, .f32⟩
  | .hbm, ⟨8, _⟩ => ⟨S96x2048x1, .f32⟩
  | .hbm, ⟨9, _⟩ => ⟨S96x2048x1, .f32⟩
  | .hbm, ⟨10, _⟩ => ⟨S96x2048x3, .f32⟩
  | .hbm, ⟨11, _⟩ => ⟨S32x6144x3, .f32⟩
  | .local _ .vmem, ⟨0, _⟩ => ⟨S8x300x512, .f32⟩
  | .local _ .vmem, ⟨1, _⟩ => ⟨S8x300x512, .f32⟩
  | .local _ .vmem, ⟨2, _⟩ => ⟨S8x300x512, .f32⟩
  | .local _ .vmem, ⟨3, _⟩ => ⟨S8x300x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | _, _ => ⟨S32x3x300x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x300x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x300x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x3x300x2048_S96x300x2048 : S32x3x300x2048.ShapeCasts S96x300x2048
  inb_S8x300x512_S8x300x512_0_0_0 : ∀ a, (![0, 0, 0] : Fin 3 → Nat) a + S8x300x512.size a ≤ S8x300x512.size a
  h_S8x300x512 : 0 < S8x300x512.numel
  shapeCasts_S8x300x512_S8x300x512 : S8x300x512.ShapeCasts S8x300x512
  reduces_S8x300x512_S8x512 : S8x300x512.Reduces [1] S8x512
  inb_S8x512_S8x512_0_0 : ∀ a, (![0, 0] : Fin 2 → Nat) a + S8x512.size a ≤ S8x512.size a
  h_S8x512 : 0 < S8x512.numel
  bcast_S96x2048_S96x2048x1_0_1 : S96x2048.BroadcastsInDim S96x2048x1 (![0, 1] : Fin 2 → Fin S96x2048x1.rank)
  concatenates_S96x2048x1_S96x2048x1_S96x2048x1_S96x2048x3_d2 : Shape.Concatenates [S96x2048x1, S96x2048x1, S96x2048x1] S96x2048x3 2
  shapeCasts_S96x2048x3_S32x6144x3 : S96x2048x3.ShapeCasts S32x6144x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x512.size a ≤ S96x300x2048.size a
  hwx0_0 : ∀ i : grid0.Coords, EltTy.bits .f32 = 32 ∨ (Rect.block (s := S96x300x2048) S8x300x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x300x512.size a ≤ S96x300x2048.size a
  hwx0_1 : ∀ i : grid0.Coords, EltTy.bits .f32 = 32 ∨ (Rect.block (s := S96x300x2048) S8x300x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S96x2048.size a
  hwx0_2 : ∀ i : grid0.Coords, EltTy.bits .f32 = 32 ∨ (Rect.block (s := S96x2048) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S96x2048.size a
  hwx0_3 : ∀ i : grid0.Coords, EltTy.bits .f32 = 32 ∨ (Rect.block (s := S96x2048) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S96x2048.size a
  hwx0_4 : ∀ i : grid0.Coords, EltTy.bits .f32 = 32 ∨ (Rect.block (s := S96x2048) S8x512.size (cc0_transform_4 i) (hinb0_4 i)).WholeWords (EltTy.packing .f32)

variable [Facts₀]

abbrev win0_0 : Pipeline.Window sig grid0 :=
  Pipeline.Window.ofSpec (Memref.whole main_v0) S8x300x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x300x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x300x2048 : Shape := ⟨4, ![32, 3, 300, 2048]⟩
abbrev S32x3x2048x300 : Shape := ⟨4, ![32, 3, 2048, 300]⟩
abbrev S_ : Shape := ⟨0, ![]⟩
abbrev S32x3x2048 : Shape := ⟨3, ![32, 3, 2048]⟩
abbrev S32x3x2048x1 : Shape := ⟨4, ![32, 3, 2048, 1]⟩
abbrev S32x3x2048x3 : Shape := ⟨4, ![32, 3, 2048, 3]⟩
abbrev S32x6144x3 : Shape := ⟨3, ![32, 6144, 3]⟩

abbrev nBuf : Space → Nat
  | .hbm => 30
  | .vmem => 0
  | .smem => 0
  | _ => 0

abbrev bufTy : (tb : Table) → Fin (tcTables nBuf tb) → BufTy
  | .hbm, ⟨0, _⟩ => ⟨S32x3x300x2048, .f32⟩
  | .hbm, ⟨1, _⟩ => ⟨S32x3x300x2048, .f32⟩
  | .hbm, ⟨2, _⟩ => ⟨S32x3x2048x300, .f32⟩
  | .hbm, ⟨3, _⟩ => ⟨S32x3x2048x300, .f32⟩
  | .hbm, ⟨4, _⟩ => ⟨S32x3x2048x300, .f32⟩
  | .hbm, ⟨5, _⟩ => ⟨S_, .f32⟩
  | .hbm, ⟨6, _⟩ => ⟨S32x3x2048, .f32⟩
  | .hbm, ⟨7, _⟩ => ⟨S32x3x2048x300, .f32⟩
  | .hbm, ⟨8, _⟩ => ⟨S_, .f32⟩
  | .hbm, ⟨9, _⟩ => ⟨S32x3x2048, .f32⟩
  | .hbm, ⟨10, _⟩ => ⟨S32x3x2048, .f32⟩
  | .hbm, ⟨11, _⟩ => ⟨S32x3x2048x300, .f32⟩
  | .hbm, ⟨12, _⟩ => ⟨S_, .f32⟩
  | .hbm, ⟨13, _⟩ => ⟨S32x3x2048, .f32⟩
  | .hbm, ⟨14, _⟩ => ⟨S32x3x2048, .f32⟩
  | .hbm, ⟨15, _⟩ => ⟨S32x3x2048, .f32⟩
  | .hbm, ⟨16, _⟩ => ⟨S32x3x2048, .f32⟩
  | .hbm, ⟨17, _⟩ => ⟨S32x3x2048x300, .f32⟩
  | .hbm, ⟨18, _⟩ => ⟨S32x3x2048x300, .f32⟩
  | .hbm, ⟨19, _⟩ => ⟨S_, .f32⟩
  | .hbm, ⟨20, _⟩ => ⟨S32x3x2048, .f32⟩
  | .hbm, ⟨21, _⟩ => ⟨S32x3x2048, .f32⟩
  | .hbm, ⟨22, _⟩ => ⟨S32x3x2048x300, .f32⟩
  | .hbm, ⟨23, _⟩ => ⟨S_, .f32⟩
  | .hbm, ⟨24, _⟩ => ⟨S32x3x2048, .f32⟩
  | .hbm, ⟨25, _⟩ => ⟨S32x3x2048x1, .f32⟩
  | .hbm, ⟨26, _⟩ => ⟨S32x3x2048x1, .f32⟩
  | .hbm, ⟨27, _⟩ => ⟨S32x3x2048x1, .f32⟩
  | .hbm, ⟨28, _⟩ => ⟨S32x3x2048x3, .f32⟩
  | .hbm, ⟨29, _⟩ => ⟨S32x6144x3, .f32⟩
  | _, _ => ⟨S32x3x300x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  transposes_S32x3x300x2048_S32x3x2048x300_0_1_3_2 : S32x3x300x2048.Transposes [0, 1, 3, 2] S32x3x2048x300
  reducesTo_S32x3x2048x300_S32x3x2048_d3 : S32x3x2048x300.ReducesTo [3] S32x3x2048
  h_S_ : 0 < S_.numel
  bcast_S32x3x2048_S32x3x2048x1_0_1_2 : S32x3x2048.BroadcastsInDim S32x3x2048x1 (![0, 1, 2] : Fin 3 → Fin S32x3x2048x1.rank)
  concatenates_S32x3x2048x1_S32x3x2048x1_S32x3x2048x1_S32x3x2048x3_d3 : Shape.Concatenates [S32x3x2048x1, S32x3x2048x1, S32x3x2048x1] S32x3x2048x3 3
  shapeCasts_S32x3x2048x3_S32x6144x3 : S32x3x2048x3.ShapeCasts S32x6144x3

variable [Facts₀]

class Facts : Prop extends Facts₀ where

variable [Facts]
-- ==== Proof.FrameBits.lean ====
/-
  The run of the program around its one launch, and what the launch leaves.

  @main recasts each argument [32, 3, 300, 2048] as [96, 300, 2048] (the two leading axes merged), launches the body
  on a 12 x 4 grid, and joins the three [96, 2048] results along a new last axis into [96, 2048, 3], recast as
  [32, 6144, 3]. At grid point (i, j) the body reads block (i, 0, j) of each recast argument — rows 8i .. 8i+7, all
  300 entries of the middle axis, columns 512j .. 512j+511 — and writes block (i, j) of each result: it loads the two
  input blocks whole, and stores three [8, 512] values, each a function of the two loaded blocks only, over the three
  output blocks whole (what those blocks held before is loaded but never used).

  So the proof data of the launch are: each input's buffer at its block of the array, each output's buffer after the
  body at the stored value of the two input blocks; the body's run, from any contents of the output buffers; and the
  launch theorem for a program that goes on with host lines after the region. The arguments are read, never written:
  the lines before the region write only the recast copies, the lines after it only their own results.
-/
import proofs.«138748_j55851754717413_2_alg».proof.Proof.Gen.Kernel.Launch
import proofs.«138748_j55851754717413_2_alg».proof.Proof.Gen.Kernel.Skeleton
import proofs.«138748_j55851754717413_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two recasts. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two recasts, the region, and the five joining lines: it reduces to the region continued by the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the five arrays the launch reads or writes. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- Neither recast writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No line after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current buffer holds its block at every point, for any proof data over the region-entry arrays
    whose body leaves the block in place: the window is fetched whole at every point it moves and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from any frame run -/

/-- For any proof data over the region-entry arrays, a run to the launch's post is a run after which both arguments
    hold their launch contents: neither is an array of the launch, so each ends as the later lines leave it, and no
    line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c))⟩) h

/-! ## The body's accesses -/

/-- An input buffer whole. -/
abbrev rIn : Rect S8x300x512 := Rect.unit (s := S8x300x512) ![0, 0, 0] S8x300x512.size inb_S8x300x512_S8x300x512_0_0_0
/-- An output buffer whole. -/
abbrev rOut : Rect S8x512 := Rect.unit (s := S8x512) ![0, 0] S8x512.size inb_S8x512_S8x512_0_0

/-! ## What the body leaves in each output buffer -/

/-- The first result's buffer after the body: the one store, of dot · rsqrt(|x|² · |y|²) of the loaded blocks. -/
def out0_2 (x0 x1 : Vec F S8x300x512 .f32) : Vec F S8x512 .f32 :=
  View.canon [⟨rOut, k0_pay7 (View.ld x0 rIn) (View.ld x1 rIn)⟩]
/-- The second result's: sqrt(|x|² + |y|² − 2 · dot). -/
def out0_3 (x0 x1 : Vec F S8x300x512 .f32) : Vec F S8x512 .f32 :=
  View.canon [⟨rOut, k0_pay8 (View.ld x0 rIn) (View.ld x1 rIn)⟩]
/-- The third result's: the sum of |x − y| down the middle axis. -/
def out0_4 (x0 x1 : Vec F S8x300x512 .f32) : Vec F S8x512 .f32 :=
  View.canon [⟨rOut, k0_pay6 (View.ld x0 rIn) (View.ld x1 rIn)⟩]

/-- One store over the whole buffer covers it. -/
theorem cover_out (p0 : Vec F S8x512 .f32) (y : S8x512.Idx) :
    ∃ pc ∈ ([⟨rOut, p0⟩] : List (View.Piece (Elt F) S8x512 .f32)), y ∈ pc.1.set :=
  View.cover_of_tiled [⟨rOut, p0⟩] S8x512.size (by rfl) y

/-! ## The body's run -/

set_option maxHeartbeats 1000000 in
/-- On whole buffers, the inputs' at contents `x0`, `x1` and the outputs' at anything, the body runs to the end,
    leaving the inputs' as they were and each output's at its stored value of `x0`, `x1`. -/
theorem sound_kernel (c : Dev nD) (E : Set ℕ) (i : grid0.Coords) (arg2 : Memref sig .tc .vmem S8x300x512 .f32) (harg2 : arg2.IsWhole) (arg3 : Memref sig .tc .vmem S8x300x512 .f32) (harg3 : arg3.IsWhole)
    (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole)
    (x0 x1 : Vec F S8x300x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

/-! ## The launch's proof data -/

/-- On core `c`: the arrays as the region finds them; after the body at point `t` each input's buffer at its block
    and each output's at its stored value of the two input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's run applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the launch holds what the write-backs of the proof data leave and every other unscoped buffer what the
    lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameIdeal.lean ====
/-
  The run of the program around its one launch, and what the launch leaves.

  @main recasts each argument [32, 3, 300, 2048] as [96, 300, 2048] (the two leading axes merged), launches the body
  on a 12 x 4 grid, and joins the three [96, 2048] results along a new last axis into [96, 2048, 3], recast as
  [32, 6144, 3]. At grid point (i, j) the body reads block (i, 0, j) of each recast argument — rows 8i .. 8i+7, all
  300 entries of the middle axis, columns 512j .. 512j+511 — and writes block (i, j) of each result: it loads the two
  input blocks whole, and stores three [8, 512] values, each a function of the two loaded blocks only, over the three
  output blocks whole (what those blocks held before is loaded but never used).

  So the proof data of the launch are: each input's buffer at its block of the array, each output's buffer after the
  body at the stored value of the two input blocks; the body's run, from any contents of the output buffers; and the
  launch theorem for a program that goes on with host lines after the region. The arguments are read, never written:
  the lines before the region write only the recast copies, the lines after it only their own results.
-/
import proofs.«138748_j55851754717413_2_alg».proof.Proof.Gen.KernelIdeal.Launch
import proofs.«138748_j55851754717413_2_alg».proof.Proof.Gen.KernelIdeal.Skeleton
import proofs.«138748_j55851754717413_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two recasts. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two recasts, the region, and the five joining lines: it reduces to the region continued by the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the five arrays the launch reads or writes. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- Neither recast writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No line after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current buffer holds its block at every point, for any proof data over the region-entry arrays
    whose body leaves the block in place: the window is fetched whole at every point it moves and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, from any frame run -/

/-- For any proof data over the region-entry arrays, a run to the launch's post is a run after which both arguments
    hold their launch contents: neither is an array of the launch, so each ends as the later lines leave it, and no
    line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c))⟩) h

/-! ## The body's accesses -/

/-- An input buffer whole. -/
abbrev rIn : Rect S8x300x512 := Rect.unit (s := S8x300x512) ![0, 0, 0] S8x300x512.size inb_S8x300x512_S8x300x512_0_0_0
/-- An output buffer whole. -/
abbrev rOut : Rect S8x512 := Rect.unit (s := S8x512) ![0, 0] S8x512.size inb_S8x512_S8x512_0_0

/-! ## What the body leaves in each output buffer -/

/-- The first result's buffer after the body: the one store, of dot · rsqrt(|x|² · |y|²) of the loaded blocks. -/
def out0_2 (x0 x1 : Vec F S8x300x512 .f32) : Vec F S8x512 .f32 :=
  View.canon [⟨rOut, k0_pay7 (View.ld x0 rIn) (View.ld x1 rIn)⟩]
/-- The second result's: sqrt(|x|² + |y|² − 2 · dot). -/
def out0_3 (x0 x1 : Vec F S8x300x512 .f32) : Vec F S8x512 .f32 :=
  View.canon [⟨rOut, k0_pay8 (View.ld x0 rIn) (View.ld x1 rIn)⟩]
/-- The third result's: the sum of |x − y| down the middle axis. -/
def out0_4 (x0 x1 : Vec F S8x300x512 .f32) : Vec F S8x512 .f32 :=
  View.canon [⟨rOut, k0_pay6 (View.ld x0 rIn) (View.ld x1 rIn)⟩]

/-- One store over the whole buffer covers it. -/
theorem cover_out (p0 : Vec F S8x512 .f32) (y : S8x512.Idx) :
    ∃ pc ∈ ([⟨rOut, p0⟩] : List (View.Piece (Elt F) S8x512 .f32)), y ∈ pc.1.set :=
  View.cover_of_tiled [⟨rOut, p0⟩] S8x512.size (by rfl) y

/-! ## The body's run -/

set_option maxHeartbeats 1000000 in
/-- On whole buffers, the inputs' at contents `x0`, `x1` and the outputs' at anything, the body runs to the end,
    leaving the inputs' as they were and each output's at its stored value of `x0`, `x1`. -/
theorem sound_kernel (c : Dev nD) (E : Set ℕ) (i : grid0.Coords) (arg2 : Memref sig .tc .vmem S8x300x512 .f32) (harg2 : arg2.IsWhole) (arg3 : Memref sig .tc .vmem S8x300x512 .f32) (harg3 : arg3.IsWhole)
    (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole)
    (x0 x1 : Vec F S8x300x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  isplitl [H3]
  · iexists _; isplitr
    swap; · iexact H3
    ipureintro
    exact View.read_writes_eq_canon _ _ _ (cover_out _)
  iexists _; isplitr
  swap; · iexact H4
  ipureintro
  exact View.read_writes_eq_canon _ _ _ (cover_out _)

/-! ## The launch's proof data -/

/-- On core `c`: the arrays as the region finds them; after the body at point `t` each input's buffer at its block
    and each output's at its stored value of the two input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's run applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the launch holds what the write-backs of the proof data leave and every other unscoped buffer what the
    lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.KernelBlocks.lean ====
/-
  What the body stores, read at one coordinate pair of an [8, 512] output block, at the extended reals: each of the
  body's four sums down the middle axis of an [8, 300, 512] block is the sum over the 300 middle coordinates, and the
  three stored values are the cosine, the Euclidean distance and the L1 distance in the body's spelling, of the two
  columns (p, ·, q) of the loaded blocks.
-/
import proofs.«138748_j55851754717413_2_alg».proof.Proof.Gen.KernelIdeal.Skeleton
import proofs.«138748_j55851754717413_2_alg».proof.Proof.LibMid
import Idealize.ShloMosaic.Lib.Pipeline.Value
import Idealize.ShloMosaic.Lib.ValueIdx
import Idealize.ShloMosaic.PureOps.Ideal.Laws

noncomputable section

namespace Cert.KernelIdeal.Blocks

open Idealize.ShloMosaic Idealize.ShloMosaic.ValueIdx Cert.KernelIdeal Cert.KernelIdeal.Gen
open scoped BigOperators

variable (x0 x1 : Vec Ideal S8x300x512 .f32)

/-- The sums over column (p, ·, q) of the blocks. -/
def bdot (p : Fin 8) (q : Fin 512) : EReal := ∑ d : Fin 300, x0 (ix3 p d q) * x1 (ix3 p d q)
def bsq (x : Vec Ideal S8x300x512 .f32) (p : Fin 8) (q : Fin 512) : EReal := ∑ d : Fin 300, x (ix3 p d q) * x (ix3 p d q)
def bl1 (p : Fin 8) (q : Fin 512) : EReal := ∑ d : Fin 300, FloatOps.absf (F := Ideal) (φ := .f32) (x0 (ix3 p d q) - x1 (ix3 p d q))

/-- A block recast to its own shape is itself. -/
theorem pay1_eq (x : Vec Ideal S8x300x512 .f32) : k0_pay1 x = x := shapeCast_self x _
theorem pay2_eq (x : Vec Ideal S8x300x512 .f32) : k0_pay2 x = x := shapeCast_self x _

theorem pay3_apply (p : Fin 8) (q : Fin 512) : k0_pay3 x0 x1 (ix2 p q) = bdot x0 x1 p q := by
  unfold k0_pay3
  refine (Cert.LibMid.multiReduction_add_mid_apply (a := 8) (n := 300) (b := 512) _ _ _ _ _ p q).trans ?_
  refine Finset.sum_congr rfl fun d _ => ?_
  show k0_pay1 x0 (ix3 p d q) * k0_pay2 x1 (ix3 p d q) = _
  rw [pay1_eq, pay2_eq]

theorem pay4_apply (p : Fin 8) (q : Fin 512) : k0_pay4 x0 (ix2 p q) = bsq x0 p q := by
  unfold k0_pay4
  refine (Cert.LibMid.multiReduction_add_mid_apply (a := 8) (n := 300) (b := 512) _ _ _ _ _ p q).trans ?_
  refine Finset.sum_congr rfl fun d _ => ?_
  show k0_pay1 x0 (ix3 p d q) * k0_pay1 x0 (ix3 p d q) = _
  rw [pay1_eq]

theorem pay5_apply (p : Fin 8) (q : Fin 512) : k0_pay5 x1 (ix2 p q) = bsq x1 p q := by
  unfold k0_pay5
  refine (Cert.LibMid.multiReduction_add_mid_apply (a := 8) (n := 300) (b := 512) _ _ _ _ _ p q).trans ?_
  refine Finset.sum_congr rfl fun d _ => ?_
  show k0_pay2 x1 (ix3 p d q) * k0_pay2 x1 (ix3 p d q) = _
  rw [pay2_eq]

/-- The third stored value: the L1 distance of the two columns. -/
theorem pay6_apply (p : Fin 8) (q : Fin 512) : k0_pay6 x0 x1 (ix2 p q) = bl1 x0 x1 p q := by
  unfold k0_pay6
  refine (Cert.LibMid.multiReduction_add_mid_apply (a := 8) (n := 300) (b := 512) _ _ _ _ _ p q).trans ?_
  refine Finset.sum_congr rfl fun d _ => ?_
  show FloatOps.absf (F := Ideal) (φ := .f32) (k0_pay1 x0 (ix3 p d q) - k0_pay2 x1 (ix3 p d q)) = _
  rw [pay1_eq, pay2_eq]

/-- The first stored value: dot · (|x|²·|y|²)^(-1/2) of the two columns. -/
theorem pay7_apply (p : Fin 8) (q : Fin 512) :
    k0_pay7 x0 x1 (ix2 p q) = bdot x0 x1 p q * Ideal.rsqrt (bsq x0 p q * bsq x1 p q) := by
  show k0_pay3 x0 x1 (ix2 p q) * Ideal.rsqrt (k0_pay4 x0 (ix2 p q) * k0_pay5 x1 (ix2 p q)) = _
  rw [pay3_apply, pay4_apply, pay5_apply]

/-- The second stored value: √(|x|² + |y|² − 2·dot) of the two columns. -/
theorem pay8_apply (p : Fin 8) (q : Fin 512) :
    k0_pay8 x0 x1 (ix2 p q) = Ideal.sqrt (bsq x0 p q + bsq x1 p q - Ideal.ofBits .f32 0x40000000#32 * bdot x0 x1 p q) := by
  show Ideal.sqrt (k0_pay4 x0 (ix2 p q) + k0_pay5 x1 (ix2 p q) - Ideal.ofBits .f32 0x40000000#32 * k0_pay3 x0 x1 (ix2 p q)) = _
  rw [pay3_apply, pay4_apply, pay5_apply]

end Cert.KernelIdeal.Blocks

end
-- ==== Proof.KernelArrays.lean ====
/-
  From blocks to arrays: the three [96, 2048] results of the launch, each as one function of the two recast arguments
  [96, 300, 2048], index by index.

  The grid's 12 x 4 points write the 12 x 4 blocks [8, 512] that tile a result, point (i, j) writing block (i, j); the
  block it reads of each argument is rows 8i .. 8i+7, the whole middle axis, columns 512j .. 512j+511. So entry (r, n)
  of a result is the stored value's entry (r mod 8, n mod 512) at point (r / 8, n / 512), whose sums run over the 300
  entries (r, ·, n) of the recast arguments: the cosine, the Euclidean distance and the L1 distance of those two
  columns, in the body's spelling.
-/
import proofs.«138748_j55851754717413_2_alg».proof.Proof.FrameIdeal
import proofs.«138748_j55851754717413_2_alg».proof.Proof.KernelBlocks
import Idealize.ShloMosaic.Lib.Pipeline.Value

set_option maxRecDepth 16384

noncomputable section

namespace Cert.KernelIdeal.Arrays

open Cert.KernelIdeal Cert.KernelIdeal.Gen Cert.KernelIdeal.Hand Cert.KernelIdeal.Blocks
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A result index's row and column. -/
def row (i : S96x2048.Idx) : Fin 96 := ⟨(i 0).val, (i 0).isLt⟩
def col (i : S96x2048.Idx) : Fin 2048 := ⟨(i 1).val, (i 1).isLt⟩

/-- The sums over column (r, ·, n) of the recast arguments. -/
def adot (a0 a1 : S96x300x2048.Idx → EReal) (r : Fin 96) (n : Fin 2048) : EReal := ∑ d : Fin 300, a0 (ix3 r d n) * a1 (ix3 r d n)
def asq (a : S96x300x2048.Idx → EReal) (r : Fin 96) (n : Fin 2048) : EReal := ∑ d : Fin 300, a (ix3 r d n) * a (ix3 r d n)
def al1 (a0 a1 : S96x300x2048.Idx → EReal) (r : Fin 96) (n : Fin 2048) : EReal :=
  ∑ d : Fin 300, FloatOps.absf (F := Ideal) (φ := .f32) (a0 (ix3 r d n) - a1 (ix3 r d n))

/-- The three results as functions of the recast arguments. -/
def Gcos (a0 a1 : S96x300x2048.Idx → EReal) : S96x2048.Idx → EReal := fun i =>
  adot a0 a1 (row i) (col i) * Ideal.rsqrt (asq a0 (row i) (col i) * asq a1 (row i) (col i))
def Gl2 (a0 a1 : S96x300x2048.Idx → EReal) : S96x2048.Idx → EReal := fun i =>
  Ideal.sqrt (asq a0 (row i) (col i) + asq a1 (row i) (col i) - Ideal.ofBits .f32 0x40000000#32 * adot a0 a1 (row i) (col i))
def Gl1 (a0 a1 : S96x300x2048.Idx → EReal) : S96x2048.Idx → EReal := fun i => al1 a0 a1 (row i) (col i)

/-! ## Result 0: the cosine -/

/-- The printed index maps, decided over the 48 grid points: both inputs' blocks sit at the output block's row and
    column offsets, at offset 0 on the middle axis; and the output's block indices stay in their ranges. -/
theorem idx_facts2 : ∀ t : Fin cfg0.N,
    win0_0.index t (0 : Fin 3) = win0_2.index t (0 : Fin 2) ∧ win0_0.index t (1 : Fin 3) = 0 ∧ win0_0.index t (2 : Fin 3) = win0_2.index t (1 : Fin 2)
    ∧ win0_1.index t (0 : Fin 3) = win0_2.index t (0 : Fin 2) ∧ win0_1.index t (1 : Fin 3) = 0 ∧ win0_1.index t (2 : Fin 3) = win0_2.index t (1 : Fin 2)
    ∧ win0_2.index t (0 : Fin 2) ≤ 11 ∧ win0_2.index t (1 : Fin 2) ≤ 3 :=
  (by decide +kernel : ∀ t : Fin grid0.N, _)

/-- Every block of the array is some point's. -/
theorem idx_onto2 : ∀ (q0 : Fin 12) (q1 : Fin 4), ∃ t : Fin cfg0.N, win0_2.index t = ![q0.val, q1.val] :=
  (by decide +kernel : ∀ (q0 : Fin 12) (q1 : Fin 4), ∃ t : Fin grid0.N, win0_2.index t = ![q0.val, q1.val])

/-- Entry (p, d, q) of the first input's block at point `t` is the recast argument's entry at the output block's row
    and column of (p, q), middle coordinate d. -/
theorem blk0_at2 (c : Dev nD) (t : Fin cfg0.N) (p : Fin 8) (d : Fin 300) (q : Fin 512) :
    iblk m c 0 t (ix3 p d q) = V m c main_v0 (ix3 (row (((cfg0.win 2).blk t).view.emb (ix2 p q))) d (col (((cfg0.win 2).blk t).view.emb (ix2 p q)))) := by
  obtain ⟨e0, e1, e2, -⟩ := idx_facts2 t
  show V m c main_v0 (((cfg0.win 0).blk t).view.emb (ix3 p d q)) = V m c main_v0 _
  refine congrArg (V m c main_v0) (funext fun a => Fin.ext ?_)
  match a with
  | ⟨0, _⟩ => show win0_0.index t (0 : Fin 3) * 8 + 1 * p.val = win0_2.index t (0 : Fin 2) * 8 + 1 * p.val; omega
  | ⟨1, _⟩ => show win0_0.index t (1 : Fin 3) * 300 + 1 * d.val = d.val; omega
  | ⟨2, _⟩ => show win0_0.index t (2 : Fin 3) * 512 + 1 * q.val = win0_2.index t (1 : Fin 2) * 512 + 1 * q.val; omega
/-- The second input's likewise. -/
theorem blk1_at2 (c : Dev nD) (t : Fin cfg0.N) (p : Fin 8) (d : Fin 300) (q : Fin 512) :
    iblk m c 1 t (ix3 p d q) = V m c main_v1 (ix3 (row (((cfg0.win 2).blk t).view.emb (ix2 p q))) d (col (((cfg0.win 2).blk t).view.emb (ix2 p q)))) := by
  obtain ⟨-, -, -, e0, e1, e2, -⟩ := idx_facts2 t
  show V m c main_v1 (((cfg0.win 1).blk t).view.emb (ix3 p d q)) = V m c main_v1 _
  refine congrArg (V m c main_v1) (funext fun a => Fin.ext ?_)
  match a with
  | ⟨0, _⟩ => show win0_1.index t (0 : Fin 3) * 8 + 1 * p.val = win0_2.index t (0 : Fin 2) * 8 + 1 * p.val; omega
  | ⟨1, _⟩ => show win0_1.index t (1 : Fin 3) * 300 + 1 * d.val = d.val; omega
  | ⟨2, _⟩ => show win0_1.index t (2 : Fin 3) * 512 + 1 * q.val = win0_2.index t (1 : Fin 2) * 512 + 1 * q.val; omega

/-- What point `t` writes back is block `t` of the whole-array function of the recast arguments. -/
theorem flushed_eq2 (c : Dev nD) (t : Fin cfg0.N) :
    (dats m 0 c).flushed 2 t = ((cfg0.win 2).blk t).view.read (Elt Ideal) (Gcos (V m c main_v0) (V m c main_v1)) := by
  show (cfg0.win 2).cut (grid0.coords t) ((dats m 0 c).after 2 t) = _
  rw [after0_2]
  unfold out0_2
  rw [View.canon_unit_zero hz2]
  simp only [View.ld_unit_zero (S := S8x300x512) hz3]
  funext j
  obtain ⟨p, q, rfl⟩ : ∃ (p : Fin 8) (q : Fin 512), j = ix2 p q := ⟨j 0, j 1, eq_ix2 j⟩
  show k0_pay7 (iblk m c 0 t) (iblk m c 1 t) (ix2 p q) = Gcos (V m c main_v0) (V m c main_v1) (((cfg0.win 2).blk t).view.emb (ix2 p q))
  refine (pay7_apply (iblk m c 0 t) (iblk m c 1 t) p q).trans ?_
  simp only [Gcos, bdot, bsq, bl1, adot, asq, al1, blk0_at2 m c t p, blk1_at2 m c t p]

/-- An index of the array is in point `t`'s block iff each coordinate is in the block's range on its axis. -/
theorem mem_blk2 (t : Fin cfg0.N) (i : S96x2048.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v2_0).slice (win0_2.rect t)).set ↔ _
  rw [View.set_slice_whole, Rect.mem_set_unit]
  exact Iff.rfl

/-- Every index of the array is in some point's block: row r is in row-block r / 8, column n in column-block n / 512. -/
theorem cover2 (i : S96x2048.Idx) : ∃ t : Fin cfg0.N, (cfg0.win 2).flush t = true ∧ i ∈ ((cfg0.win 2).blk t).view.set := by
  have hi0 : (i 0).val < 96 := (i 0).isLt
  have hi1 : (i 1).val < 2048 := (i 1).isLt
  obtain ⟨t, ht⟩ := idx_onto2 ⟨(i 0).val / 8, by omega⟩ ⟨(i 1).val / 512, by omega⟩
  have q0 : win0_2.index t (0 : Fin 2) = (i 0).val / 8 := congrFun ht 0
  have q1 : win0_2.index t (1 : Fin 2) = (i 1).val / 512 := congrFun ht 1
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- The array after the run is the whole-array function of the recast arguments. -/
theorem final2 (c : Dev nD) : (dats m 0 c).arrAt 2 cfg0.N = Gcos (V m c main_v0) (V m c main_v1) :=
  (dats m 0 c).arrAt_eq_of_cover 2 (Gcos (V m c main_v0) (V m c main_v1)) (fun t _ => flushed_eq2 m c t) cover2

/-! ## Result 1: the Euclidean distance -/

/-- The printed index maps, decided over the 48 grid points: both inputs' blocks sit at the output block's row and
    column offsets, at offset 0 on the middle axis; and the output's block indices stay in their ranges. -/
theorem idx_facts3 : ∀ t : Fin cfg0.N,
    win0_0.index t (0 : Fin 3) = win0_3.index t (0 : Fin 2) ∧ win0_0.index t (1 : Fin 3) = 0 ∧ win0_0.index t (2 : Fin 3) = win0_3.index t (1 : Fin 2)
    ∧ win0_1.index t (0 : Fin 3) = win0_3.index t (0 : Fin 2) ∧ win0_1.index t (1 : Fin 3) = 0 ∧ win0_1.index t (2 : Fin 3) = win0_3.index t (1 : Fin 2)
    ∧ win0_3.index t (0 : Fin 2) ≤ 11 ∧ win0_3.index t (1 : Fin 2) ≤ 3 :=
  (by decide +kernel : ∀ t : Fin grid0.N, _)

/-- Every block of the array is some point's. -/
theorem idx_onto3 : ∀ (q0 : Fin 12) (q1 : Fin 4), ∃ t : Fin cfg0.N, win0_3.index t = ![q0.val, q1.val] :=
  (by decide +kernel : ∀ (q0 : Fin 12) (q1 : Fin 4), ∃ t : Fin grid0.N, win0_3.index t = ![q0.val, q1.val])

/-- Entry (p, d, q) of the first input's block at point `t` is the recast argument's entry at the output block's row
    and column of (p, q), middle coordinate d. -/
theorem blk0_at3 (c : Dev nD) (t : Fin cfg0.N) (p : Fin 8) (d : Fin 300) (q : Fin 512) :
    iblk m c 0 t (ix3 p d q) = V m c main_v0 (ix3 (row (((cfg0.win 3).blk t).view.emb (ix2 p q))) d (col (((cfg0.win 3).blk t).view.emb (ix2 p q)))) := by
  obtain ⟨e0, e1, e2, -⟩ := idx_facts3 t
  show V m c main_v0 (((cfg0.win 0).blk t).view.emb (ix3 p d q)) = V m c main_v0 _
  refine congrArg (V m c main_v0) (funext fun a => Fin.ext ?_)
  match a with
  | ⟨0, _⟩ => show win0_0.index t (0 : Fin 3) * 8 + 1 * p.val = win0_3.index t (0 : Fin 2) * 8 + 1 * p.val; omega
  | ⟨1, _⟩ => show win0_0.index t (1 : Fin 3) * 300 + 1 * d.val = d.val; omega
  | ⟨2, _⟩ => show win0_0.index t (2 : Fin 3) * 512 + 1 * q.val = win0_3.index t (1 : Fin 2) * 512 + 1 * q.val; omega
/-- The second input's likewise. -/
theorem blk1_at3 (c : Dev nD) (t : Fin cfg0.N) (p : Fin 8) (d : Fin 300) (q : Fin 512) :
    iblk m c 1 t (ix3 p d q) = V m c main_v1 (ix3 (row (((cfg0.win 3).blk t).view.emb (ix2 p q))) d (col (((cfg0.win 3).blk t).view.emb (ix2 p q)))) := by
  obtain ⟨-, -, -, e0, e1, e2, -⟩ := idx_facts3 t
  show V m c main_v1 (((cfg0.win 1).blk t).view.emb (ix3 p d q)) = V m c main_v1 _
  refine congrArg (V m c main_v1) (funext fun a => Fin.ext ?_)
  match a with
  | ⟨0, _⟩ => show win0_1.index t (0 : Fin 3) * 8 + 1 * p.val = win0_3.index t (0 : Fin 2) * 8 + 1 * p.val; omega
  | ⟨1, _⟩ => show win0_1.index t (1 : Fin 3) * 300 + 1 * d.val = d.val; omega
  | ⟨2, _⟩ => show win0_1.index t (2 : Fin 3) * 512 + 1 * q.val = win0_3.index t (1 : Fin 2) * 512 + 1 * q.val; omega

/-- What point `t` writes back is block `t` of the whole-array function of the recast arguments. -/
theorem flushed_eq3 (c : Dev nD) (t : Fin cfg0.N) :
    (dats m 0 c).flushed 3 t = ((cfg0.win 3).blk t).view.read (Elt Ideal) (Gl2 (V m c main_v0) (V m c main_v1)) := by
  show (cfg0.win 3).cut (grid0.coords t) ((dats m 0 c).after 3 t) = _
  rw [after0_3]
  unfold out0_3
  rw [View.canon_unit_zero hz2]
  simp only [View.ld_unit_zero (S := S8x300x512) hz3]
  funext j
  obtain ⟨p, q, rfl⟩ : ∃ (p : Fin 8) (q : Fin 512), j = ix2 p q := ⟨j 0, j 1, eq_ix2 j⟩
  show k0_pay8 (iblk m c 0 t) (iblk m c 1 t) (ix2 p q) = Gl2 (V m c main_v0) (V m c main_v1) (((cfg0.win 3).blk t).view.emb (ix2 p q))
  refine (pay8_apply (iblk m c 0 t) (iblk m c 1 t) p q).trans ?_
  simp only [Gl2, bdot, bsq, bl1, adot, asq, al1, blk0_at3 m c t p, blk1_at3 m c t p]

/-- An index of the array is in point `t`'s block iff each coordinate is in the block's range on its axis. -/
theorem mem_blk3 (t : Fin cfg0.N) (i : S96x2048.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v2_1).slice (win0_3.rect t)).set ↔ _
  rw [View.set_slice_whole, Rect.mem_set_unit]
  exact Iff.rfl

/-- Every index of the array is in some point's block: row r is in row-block r / 8, column n in column-block n / 512. -/
theorem cover3 (i : S96x2048.Idx) : ∃ t : Fin cfg0.N, (cfg0.win 3).flush t = true ∧ i ∈ ((cfg0.win 3).blk t).view.set := by
  have hi0 : (i 0).val < 96 := (i 0).isLt
  have hi1 : (i 1).val < 2048 := (i 1).isLt
  obtain ⟨t, ht⟩ := idx_onto3 ⟨(i 0).val / 8, by omega⟩ ⟨(i 1).val / 512, by omega⟩
  have q0 : win0_3.index t (0 : Fin 2) = (i 0).val / 8 := congrFun ht 0
  have q1 : win0_3.index t (1 : Fin 2) = (i 1).val / 512 := congrFun ht 1
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 512 ≤ (i 1).val ∧ (i 1).val < win0_3.index t (1 : Fin 2) * 512 + 512; omega

/-- The array after the run is the whole-array function of the recast arguments. -/
theorem final3 (c : Dev nD) : (dats m 0 c).arrAt 3 cfg0.N = Gl2 (V m c main_v0) (V m c main_v1) :=
  (dats m 0 c).arrAt_eq_of_cover 3 (Gl2 (V m c main_v0) (V m c main_v1)) (fun t _ => flushed_eq3 m c t) cover3

/-! ## Result 2: the L1 distance -/

/-- The printed index maps, decided over the 48 grid points: both inputs' blocks sit at the output block's row and
    column offsets, at offset 0 on the middle axis; and the output's block indices stay in their ranges. -/
theorem idx_facts4 : ∀ t : Fin cfg0.N,
    win0_0.index t (0 : Fin 3) = win0_4.index t (0 : Fin 2) ∧ win0_0.index t (1 : Fin 3) = 0 ∧ win0_0.index t (2 : Fin 3) = win0_4.index t (1 : Fin 2)
    ∧ win0_1.index t (0 : Fin 3) = win0_4.index t (0 : Fin 2) ∧ win0_1.index t (1 : Fin 3) = 0 ∧ win0_1.index t (2 : Fin 3) = win0_4.index t (1 : Fin 2)
    ∧ win0_4.index t (0 : Fin 2) ≤ 11 ∧ win0_4.index t (1 : Fin 2) ≤ 3 :=
  (by decide +kernel : ∀ t : Fin grid0.N, _)

/-- Every block of the array is some point's. -/
theorem idx_onto4 : ∀ (q0 : Fin 12) (q1 : Fin 4), ∃ t : Fin cfg0.N, win0_4.index t = ![q0.val, q1.val] :=
  (by decide +kernel : ∀ (q0 : Fin 12) (q1 : Fin 4), ∃ t : Fin grid0.N, win0_4.index t = ![q0.val, q1.val])

/-- Entry (p, d, q) of the first input's block at point `t` is the recast argument's entry at the output block's row
    and column of (p, q), middle coordinate d. -/
theorem blk0_at4 (c : Dev nD) (t : Fin cfg0.N) (p : Fin 8) (d : Fin 300) (q : Fin 512) :
    iblk m c 0 t (ix3 p d q) = V m c main_v0 (ix3 (row (((cfg0.win 4).blk t).view.emb (ix2 p q))) d (col (((cfg0.win 4).blk t).view.emb (ix2 p q)))) := by
  obtain ⟨e0, e1, e2, -⟩ := idx_facts4 t
  show V m c main_v0 (((cfg0.win 0).blk t).view.emb (ix3 p d q)) = V m c main_v0 _
  refine congrArg (V m c main_v0) (funext fun a => Fin.ext ?_)
  match a with
  | ⟨0, _⟩ => show win0_0.index t (0 : Fin 3) * 8 + 1 * p.val = win0_4.index t (0 : Fin 2) * 8 + 1 * p.val; omega
  | ⟨1, _⟩ => show win0_0.index t (1 : Fin 3) * 300 + 1 * d.val = d.val; omega
  | ⟨2, _⟩ => show win0_0.index t (2 : Fin 3) * 512 + 1 * q.val = win0_4.index t (1 : Fin 2) * 512 + 1 * q.val; omega
/-- The second input's likewise. -/
theorem blk1_at4 (c : Dev nD) (t : Fin cfg0.N) (p : Fin 8) (d : Fin 300) (q : Fin 512) :
    iblk m c 1 t (ix3 p d q) = V m c main_v1 (ix3 (row (((cfg0.win 4).blk t).view.emb (ix2 p q))) d (col (((cfg0.win 4).blk t).view.emb (ix2 p q)))) := by
  obtain ⟨-, -, -, e0, e1, e2, -⟩ := idx_facts4 t
  show V m c main_v1 (((cfg0.win 1).blk t).view.emb (ix3 p d q)) = V m c main_v1 _
  refine congrArg (V m c main_v1) (funext fun a => Fin.ext ?_)
  match a with
  | ⟨0, _⟩ => show win0_1.index t (0 : Fin 3) * 8 + 1 * p.val = win0_4.index t (0 : Fin 2) * 8 + 1 * p.val; omega
  | ⟨1, _⟩ => show win0_1.index t (1 : Fin 3) * 300 + 1 * d.val = d.val; omega
  | ⟨2, _⟩ => show win0_1.index t (2 : Fin 3) * 512 + 1 * q.val = win0_4.index t (1 : Fin 2) * 512 + 1 * q.val; omega

/-- What point `t` writes back is block `t` of the whole-array function of the recast arguments. -/
theorem flushed_eq4 (c : Dev nD) (t : Fin cfg0.N) :
    (dats m 0 c).flushed 4 t = ((cfg0.win 4).blk t).view.read (Elt Ideal) (Gl1 (V m c main_v0) (V m c main_v1)) := by
  show (cfg0.win 4).cut (grid0.coords t) ((dats m 0 c).after 4 t) = _
  rw [after0_4]
  unfold out0_4
  rw [View.canon_unit_zero hz2]
  simp only [View.ld_unit_zero (S := S8x300x512) hz3]
  funext j
  obtain ⟨p, q, rfl⟩ : ∃ (p : Fin 8) (q : Fin 512), j = ix2 p q := ⟨j 0, j 1, eq_ix2 j⟩
  show k0_pay6 (iblk m c 0 t) (iblk m c 1 t) (ix2 p q) = Gl1 (V m c main_v0) (V m c main_v1) (((cfg0.win 4).blk t).view.emb (ix2 p q))
  refine (pay6_apply (iblk m c 0 t) (iblk m c 1 t) p q).trans ?_
  simp only [Gl1, bdot, bsq, bl1, adot, asq, al1, blk0_at4 m c t p, blk1_at4 m c t p]

/-- An index of the array is in point `t`'s block iff each coordinate is in the block's range on its axis. -/
theorem mem_blk4 (t : Fin cfg0.N) (i : S96x2048.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v2_2).slice (win0_4.rect t)).set ↔ _
  rw [View.set_slice_whole, Rect.mem_set_unit]
  exact Iff.rfl

/-- Every index of the array is in some point's block: row r is in row-block r / 8, column n in column-block n / 512. -/
theorem cover4 (i : S96x2048.Idx) : ∃ t : Fin cfg0.N, (cfg0.win 4).flush t = true ∧ i ∈ ((cfg0.win 4).blk t).view.set := by
  have hi0 : (i 0).val < 96 := (i 0).isLt
  have hi1 : (i 1).val < 2048 := (i 1).isLt
  obtain ⟨t, ht⟩ := idx_onto4 ⟨(i 0).val / 8, by omega⟩ ⟨(i 1).val / 512, by omega⟩
  have q0 : win0_4.index t (0 : Fin 2) = (i 0).val / 8 := congrFun ht 0
  have q1 : win0_4.index t (1 : Fin 2) = (i 1).val / 512 := congrFun ht 1
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 512 ≤ (i 1).val ∧ (i 1).val < win0_4.index t (1 : Fin 2) * 512 + 512; omega

/-- The array after the run is the whole-array function of the recast arguments. -/
theorem final4 (c : Dev nD) : (dats m 0 c).arrAt 4 cfg0.N = Gl1 (V m c main_v0) (V m c main_v1) :=
  (dats m 0 c).arrAt_eq_of_cover 4 (Gl1 (V m c main_v0) (V m c main_v1)) (fun t _ => flushed_eq4 m c t) cover4

end Cert.KernelIdeal.Arrays

end
-- ==== Proof.Spec.lean ====
/-
  Cosine similarity, Euclidean distance and L1 distance of two length-300 vectors, for every (batch, pool, position):
  the functions both programs compute, each as one function of the two argument arrays index by index, and the laws
  that join the two spellings.

  With dot = Σ_d x·y, |x|² = Σ_d x·x, |y|² = Σ_d y·y over the 300 entries of a vector:
    * the cosine is  dot · (|x|²·|y|²)^(-1/2)  in one spelling and  dot / (√|x|² · √|y|²)  in the other. On real
      entries with |x|² > 0 and |y|² > 0 they agree, since √(a·b) = √a·√b and the quotient by a nonzero real is the
      product with its inverse. (At |x|² = 0 or |y|² = 0 they do not: 0 · +∞ against 0 / 0.)
    * the Euclidean distance is  √(|x|² + |y|² − 2·dot)  against  √(Σ_d (x−y)²): on real entries the two radicands
      are one number, by expanding the square. (With an infinite entry the expansion fails: ∞ − ∞.)
    * the L1 distance Σ_d |x−y| is spelt the same way in both.
  The result [32, 6144, 3] holds at (b, r, k) the k-th of the three for vector (b, r / 2048, r mod 2048).
-/
import Idealize.ShloMosaic.PureOps.Ideal.Laws
import Idealize.ShloMosaic.Lib.ValueIdx

noncomputable section

namespace Cert.Similarity

open Idealize.ShloMosaic Idealize.ShloMosaic.ValueIdx
open scoped BigOperators

/-- The arguments' shape and the result's. -/
abbrev Arg : Shape := ⟨4, ![32, 3, 300, 2048]⟩
abbrev Res : Shape := ⟨3, ![32, 6144, 3]⟩

/-! ## The sums over a vector's 300 entries -/

def dot (X Y : Arg.Idx → EReal) (b : Fin 32) (p : Fin 3) (n : Fin 2048) : EReal :=
  ∑ d : Fin 300, X (ix4 b p d n) * Y (ix4 b p d n)
def sqn (X : Arg.Idx → EReal) (b : Fin 32) (p : Fin 3) (n : Fin 2048) : EReal :=
  ∑ d : Fin 300, X (ix4 b p d n) * X (ix4 b p d n)
def dsq (X Y : Arg.Idx → EReal) (b : Fin 32) (p : Fin 3) (n : Fin 2048) : EReal :=
  ∑ d : Fin 300, (X (ix4 b p d n) - Y (ix4 b p d n)) * (X (ix4 b p d n) - Y (ix4 b p d n))
def l1 (X Y : Arg.Idx → EReal) (b : Fin 32) (p : Fin 3) (n : Fin 2048) : EReal :=
  ∑ d : Fin 300, FloatOps.absf (F := Ideal) (φ := .f32) (X (ix4 b p d n) - Y (ix4 b p d n))

/-! ## The two spellings of the cosine and of the Euclidean distance -/

/-- dot · (|x|²·|y|²)^(-1/2). -/
def cosK (X Y : Arg.Idx → EReal) (b : Fin 32) (p : Fin 3) (n : Fin 2048) : EReal :=
  dot X Y b p n * Ideal.rsqrt (sqn X b p n * sqn Y b p n)
/-- dot / (√|x|² · √|y|²). -/
def cosR (X Y : Arg.Idx → EReal) (b : Fin 32) (p : Fin 3) (n : Fin 2048) : EReal :=
  Ideal.div (dot X Y b p n) (Ideal.sqrt (sqn X b p n) * Ideal.sqrt (sqn Y b p n))
/-- √(|x|² + |y|² − 2·dot), the 2 as its f32 word. -/
def l2K (X Y : Arg.Idx → EReal) (b : Fin 32) (p : Fin 3) (n : Fin 2048) : EReal :=
  Ideal.sqrt (sqn X b p n + sqn Y b p n - Ideal.ofBits .f32 0x40000000#32 * dot X Y b p n)
/-- √(Σ (x−y)²). -/
def l2R (X Y : Arg.Idx → EReal) (b : Fin 32) (p : Fin 3) (n : Fin 2048) : EReal :=
  Ideal.sqrt (dsq X Y b p n)

/-! ## Real entries -/

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word 0x40000000 is the real number 2. -/
theorem ofBits_two : Ideal.ofBits .f32 0x40000000#32 = ((2 : ℝ) : EReal) := by
  simp [Ideal.ofBits, Ideal.ieee, -EReal.coe_mul]; norm_num

/-- For real a, b > 0 and any extended real D:  D · (a·b)^(-1/2) = D / (√a · √b). -/
theorem cos_law (D : EReal) (a b : ℝ) (ha : 0 < a) (hb : 0 < b) :
    D * Ideal.rsqrt ((a : EReal) * (b : EReal)) = Ideal.div D (Ideal.sqrt (a : EReal) * Ideal.sqrt (b : EReal)) := by
  have hab : 0 < a * b := mul_pos ha hb
  have hs : Real.sqrt a * Real.sqrt b ≠ 0 := (mul_pos (Real.sqrt_pos.2 ha) (Real.sqrt_pos.2 hb)).ne'
  rw [← EReal.coe_mul, Ideal.rsqrt_coe, if_neg (not_lt.2 hab.le), if_neg hab.ne', Ideal.sqrt_coe, if_neg (not_lt.2 ha.le),
    Ideal.sqrt_coe, if_neg (not_lt.2 hb.le), ← EReal.coe_mul, Ideal.div_coe hs, Real.sqrt_mul ha.le, one_div]

/-- Expanding the square, over any finite index set, in the reals. -/
theorem expand_real {ι : Type} (s : Finset ι) (x y : ι → ℝ) :
    ∑ i ∈ s, x i * x i + ∑ i ∈ s, y i * y i - 2 * ∑ i ∈ s, x i * y i = ∑ i ∈ s, (x i - y i) * (x i - y i) := by
  rw [Finset.mul_sum, ← Finset.sum_add_distrib, ← Finset.sum_sub_distrib]
  exact Finset.sum_congr rfl fun i _ => by ring

/-- The same on extended reals that are real numbers. -/
theorem expand_coe {ι : Type} (s : Finset ι) (x y : ι → ℝ) :
    (∑ i ∈ s, (x i : EReal) * (x i : EReal)) + (∑ i ∈ s, (y i : EReal) * (y i : EReal))
        - Ideal.ofBits .f32 0x40000000#32 * (∑ i ∈ s, (x i : EReal) * (y i : EReal))
      = ∑ i ∈ s, ((x i : EReal) - (y i : EReal)) * ((x i : EReal) - (y i : EReal)) := by
  rw [ofBits_two]
  simp only [← EReal.coe_mul, ← EReal.coe_sub, ← coe_sum, ← EReal.coe_add]
  exact congrArg _ (expand_real s x y)

section Laws

variable (X Y : Arg.Idx → EReal) (hX : ∀ i, ∃ r : ℝ, X i = r) (hY : ∀ i, ∃ r : ℝ, Y i = r)

include hX hY in
/-- On real entries the two radicands are one number, so the two Euclidean distances agree. -/
theorem l2K_eq_l2R (b : Fin 32) (p : Fin 3) (n : Fin 2048) : l2K X Y b p n = l2R X Y b p n := by
  choose x hx using hX
  choose y hy using hY
  unfold l2K l2R sqn dot dsq
  simp only [hx, hy]
  exact congrArg Ideal.sqrt (expand_coe Finset.univ (fun d => x (ix4 b p d n)) (fun d => y (ix4 b p d n)))

include hX hY in
/-- On real entries, at a pair of vectors neither of which is zero, the two cosines agree. -/
theorem cosK_eq_cosR (b : Fin 32) (p : Fin 3) (n : Fin 2048) (hx0 : 0 < sqn X b p n) (hy0 : 0 < sqn Y b p n) :
    cosK X Y b p n = cosR X Y b p n := by
  choose x hx using hX
  choose y hy using hY
  have ea : sqn X b p n = ((∑ d : Fin 300, x (ix4 b p d n) * x (ix4 b p d n) : ℝ) : EReal) := by
    unfold sqn; simp only [hx, ← EReal.coe_mul, ← coe_sum]
  have eb : sqn Y b p n = ((∑ d : Fin 300, y (ix4 b p d n) * y (ix4 b p d n) : ℝ) : EReal) := by
    unfold sqn; simp only [hy, ← EReal.coe_mul, ← coe_sum]
  rw [ea] at hx0
  rw [eb] at hy0
  unfold cosK cosR
  rw [ea, eb]
  exact cos_law _ _ _ (by exact_mod_cast hx0) (by exact_mod_cast hy0)

end Laws

/-! ## The result, index by index -/

/-- The vector a result row belongs to: row `r` of batch `b` is pool `r / 2048`, position `r mod 2048`. -/
def batchOf (i : Res.Idx) : Fin 32 := ⟨(i 0).val, (i 0).isLt⟩
def poolOf (i : Res.Idx) : Fin 3 := ⟨(i 1).val / 2048, by have h : (i 1).val < 6144 := (i 1).isLt; show (i 1).val / 2048 < 3; omega⟩
def posOf (i : Res.Idx) : Fin 2048 := ⟨(i 1).val % 2048, Nat.mod_lt _ (by decide)⟩

/-- One of three values by the last coordinate. -/
def pick (i : Res.Idx) (c0 c1 c2 : EReal) : EReal :=
  if (i 2).val = 0 then c0 else if (i 2).val = 1 then c1 else c2

/-- The result in the first spelling, -/
def outK (X Y : Arg.Idx → EReal) : Res.Idx → EReal := fun i =>
  pick i (cosK X Y (batchOf i) (poolOf i) (posOf i)) (l2K X Y (batchOf i) (poolOf i) (posOf i)) (l1 X Y (batchOf i) (poolOf i) (posOf i))
/-- and in the second. -/
def outR (X Y : Arg.Idx → EReal) : Res.Idx → EReal := fun i =>
  pick i (cosR X Y (batchOf i) (poolOf i) (posOf i)) (l2R X Y (batchOf i) (poolOf i) (posOf i)) (l1 X Y (batchOf i) (poolOf i) (posOf i))

/-- On real entries with no zero vector the two spellings are one function. -/
theorem outK_eq_outR (X Y : Arg.Idx → EReal) (hX : ∀ i, ∃ r : ℝ, X i = r) (hY : ∀ i, ∃ r : ℝ, Y i = r)
    (hx0 : ∀ b p n, 0 < sqn X b p n) (hy0 : ∀ b p n, 0 < sqn Y b p n) : outK X Y = outR X Y := by
  funext i
  unfold outK outR
  rw [cosK_eq_cosR X Y hX hY (batchOf i) (poolOf i) (posOf i) (hx0 _ _ _) (hy0 _ _ _), l2K_eq_l2R X Y hX hY]

end Cert.Similarity

end
-- ==== Proof.LibTripleJoin.lean ====
/-
  Three arrays laid end to end along an axis, read at an index.

  The join of three pieces along axis `a` finds where the axis coordinate falls among the pieces' extents `n₁, n₂, n₃`:
  below `n₁` it reads the first piece at the same coordinates; from `n₁` and below `n₁ + n₂` the second piece, the axis
  coordinate `n₁` less; from `n₁ + n₂` on the third piece, the axis coordinate `n₁ + n₂` less. For any shapes and any
  axis, and in particular for three vectors: an edge list followed by two lists of candidate edges.
-/
import Idealize.ShloMosaic.Lib.Pipeline.Value
import Idealize.ShloMosaic.Lib.ValueIdx

noncomputable section

namespace Cert.LibTripleJoin

open Idealize.ShloMosaic Idealize.ShloMosaic.ValueIdx

variable {α : Type}

/-- Where a position below the first extent falls: the first piece, at that position. -/
theorem locate_triple_fst (n₁ n₂ n₃ c : Nat) (h : c < [n₁, n₂, n₃].sum) (hc : c < n₁) :
    locate [n₁, n₂, n₃] c h = ⟨⟨0, by simp⟩, ⟨c, hc⟩⟩ := by
  rw [locate, dif_pos hc]

/-- Where a position from the first extent on and below the first two falls: the second piece, the first extent less. -/
theorem locate_triple_snd (n₁ n₂ n₃ c : Nat) (h : c < [n₁, n₂, n₃].sum) (hc : n₁ ≤ c) (hc2 : c - n₁ < n₂) :
    locate [n₁, n₂, n₃] c h = ⟨⟨1, by simp⟩, ⟨c - n₁, hc2⟩⟩ := by
  rw [locate, dif_neg (Nat.not_lt.2 hc), locate, dif_pos hc2]
  rfl

/-- Where a position from the first two extents on falls: the third piece, the first two extents less. -/
theorem locate_triple_thd (n₁ n₂ n₃ c : Nat) (h : c < [n₁, n₂, n₃].sum) (hc : n₁ ≤ c) (hc2 : n₂ ≤ c - n₁) :
    locate [n₁, n₂, n₃] c h = ⟨⟨2, by simp⟩, ⟨c - n₁ - n₂, by simp at h ⊢; omega⟩⟩ := by
  have h3 : c - n₁ - n₂ < n₃ := by simp at h; omega
  rw [locate, dif_neg (Nat.not_lt.2 hc), locate, dif_neg (Nat.not_lt.2 hc2), locate, dif_pos h3]
  rfl

/-- The extent of a piece along the joined axis, as the definition of the join spells it. -/
private abbrev ext (t : Shape) (a : Fin t.rank) (s : Shape) : ℕ :=
  if h' : s.rank = t.rank then s.size (a.cast h'.symm) else 0

/-- A three-piece join at an index whose axis coordinate falls in the FIRST piece reads the first piece at the index
    with the same coordinates. -/
theorem concatenate_triple_apply_first {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank) (i : s₁.Idx)
    (hi : ∀ b : Fin s₁.rank, (i b).val = (j (b.cast hr₁)).val) :
    concatenate t a [⟨s₁, x₁⟩, ⟨s₂, x₂⟩, ⟨s₃, x₃⟩] h j = x₁ i := by
  have hlt : (j a).val < s₁.size (a.cast hr₁.symm) := by
    have := hi (a.cast hr₁.symm); have hb := (i (a.cast hr₁.symm)).isLt; simp at this; omega
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : (j a).val < ext t a s₁ := by rw [hD₁]; exact hlt
  have HL := locate_triple_fst _ (ext t a s₂) (ext t a s₃) _ PF HC
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₁ i
  rw [HL]
  show x₁ _ = x₁ i
  congr 1
  funext b
  apply Fin.ext
  rw [hi b]
  split
  · next hb => rw [show Fin.cast hr₁ b = a from hb]; rfl
  · rfl

/-- A three-piece join at an index whose axis coordinate falls in the SECOND piece reads the second piece at the index
    with the same coordinates but on the axis, where it is the first piece's extent less. -/
theorem concatenate_triple_apply_second {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (i : s₂.Idx)
    (hi : ∀ b : Fin s₂.rank, b.cast hr₂' ≠ a → (i b).val = (j (b.cast hr₂')).val)
    (ha : (i (a.cast hr₂'.symm)).val + s₁.size (a.cast hr₁.symm) = (j a).val) :
    concatenate t a [⟨s₁, x₁⟩, ⟨s₂, x₂⟩, ⟨s₃, x₃⟩] h j = x₂ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have hib := (i (a.cast hr₂'.symm)).isLt
  have HC : ext t a s₁ ≤ (j a).val := by rw [hD₁]; omega
  have HC2 : (j a).val - ext t a s₁ < ext t a s₂ := by rw [hD₁, hD₂]; omega
  have HL := locate_triple_snd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₂ i
  rw [HL]
  show x₂ _ = x₂ i
  congr 1
  funext b
  apply Fin.ext
  split
  · next hb =>
    have eb : b = a.cast hr₂'.symm := Fin.ext (by have := congrArg Fin.val hb; simpa using this)
    subst eb
    show (j a).val - ext t a s₁ = _
    omega
  · next hb => exact (hi b hb).symm

/-- A three-piece join at an index whose axis coordinate falls in the THIRD piece reads the third piece at the index
    with the same coordinates but on the axis, where it is the first two pieces' extents less. -/
theorem concatenate_triple_apply_third {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (hr₃' : s₃.rank = t.rank) (i : s₃.Idx)
    (hi : ∀ b : Fin s₃.rank, b.cast hr₃' ≠ a → (i b).val = (j (b.cast hr₃')).val)
    (ha : (i (a.cast hr₃'.symm)).val + s₁.size (a.cast hr₁.symm) + s₂.size (a.cast hr₂'.symm) = (j a).val) :
    concatenate t a [⟨s₁, x₁⟩, ⟨s₂, x₂⟩, ⟨s₃, x₃⟩] h j = x₃ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : ext t a s₁ ≤ (j a).val := by rw [hD₁]; omega
  have HC2 : ext t a s₂ ≤ (j a).val - ext t a s₁ := by rw [hD₁, hD₂]; omega
  have HL := locate_triple_thd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₃ i
  rw [HL]
  show x₃ _ = x₃ i
  congr 1
  funext b
  apply Fin.ext
  split
  · next hb =>
    have eb : b = a.cast hr₃'.symm := Fin.ext (by have := congrArg Fin.val hb; simpa using this)
    subst eb
    show (j a).val - ext t a s₁ - ext t a s₂ = _
    omega
  · next hb => exact (hi b hb).symm

/-! ## Three vectors end to end -/

/-- Three vectors end to end: entry `k'` below the first length is the first vector's. -/
theorem cat3_vec_first {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin a) (k' : Fin n) (hk : k'.val = k.val) :
    concatenate ⟨1, ![n]⟩ 0 [⟨⟨1, ![a]⟩, x⟩, ⟨⟨1, ![b]⟩, y⟩, ⟨⟨1, ![c]⟩, z⟩] h (ix1 k') = x (ix1 k) := by
  refine concatenate_triple_apply_first (0 : Fin 1) x y z h (ix1 k') rfl (ix1 k) fun b' => ?_
  match b' with
  | ⟨0, _⟩ => exact hk.symm

/-- Three vectors end to end: entry `a + k` is the second vector's entry `k`. -/
theorem cat3_vec_second {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin b) (k' : Fin n) (hk : k'.val = a + k.val) :
    concatenate ⟨1, ![n]⟩ 0 [⟨⟨1, ![a]⟩, x⟩, ⟨⟨1, ![b]⟩, y⟩, ⟨⟨1, ![c]⟩, z⟩] h (ix1 k') = y (ix1 k) := by
  refine concatenate_triple_apply_second (0 : Fin 1) x y z h (ix1 k') rfl rfl (ix1 k) (fun b' hb => ?_) ?_
  · match b' with
    | ⟨0, _⟩ => exact absurd rfl hb
  · show k.val + a = k'.val
    omega

/-- Three vectors end to end: entry `a + b + k` is the third vector's entry `k`. -/
theorem cat3_vec_third {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin c) (k' : Fin n) (hk : k'.val = a + b + k.val) :
    concatenate ⟨1, ![n]⟩ 0 [⟨⟨1, ![a]⟩, x⟩, ⟨⟨1, ![b]⟩, y⟩, ⟨⟨1, ![c]⟩, z⟩] h (ix1 k') = z (ix1 k) := by
  refine concatenate_triple_apply_third (0 : Fin 1) x y z h (ix1 k') rfl rfl rfl (ix1 k) (fun b' hb => ?_) ?_
  · match b' with
    | ⟨0, _⟩ => exact absurd rfl hb
  · show k.val + a + b = k'.val
    omega

end Cert.LibTripleJoin

end
-- ==== Proof.LibStackThree.lean ====
/-
  Three arrays of one shape stacked along a new last axis, read at coordinates.

  jnp.stack([g0, g1, g2], axis=-1) lowers to: each array given a trailing unit axis (a broadcast_in_dim onto the
  leading axes), and the three joined along that axis. Entry (…, k) of the stack is entry (…) of the k-th array.
  For arrays of rank 2 and of rank 3, at any extents.
-/
import proofs.«138748_j55851754717413_2_alg».proof.Proof.LibTripleJoin
import Idealize.ShloMosaic.Lib.Pipeline.Value
import Idealize.ShloMosaic.Lib.ValueIdx

noncomputable section

namespace Cert.LibStackThree

open Idealize.ShloMosaic Idealize.ShloMosaic.ValueIdx

variable {α : Type}

/-! ## Rank 2 -/

/-- An `[a, b]` array given a trailing unit axis reads, at `(r, n, 0)`, the array at `(r, n)`. -/
theorem unit_last2_apply {a b : ℕ} (g : (⟨2, ![a, b]⟩ : Shape).Idx → α)
    (hb : (⟨2, ![a, b]⟩ : Shape).BroadcastsInDim ⟨3, ![a, b, 1]⟩ (![0, 1] : Fin 2 → Fin 3)) (r : Fin a) (n : Fin b) (u : Fin 1) :
    broadcastInDim ⟨3, ![a, b, 1]⟩ ![0, 1] hb g (ix3 r n u) = g (ix2 r n) := by
  refine broadcastInDim_apply _ hb g (ix3 r n u) (ix2 r n) fun ax => ?_
  match ax with
  | ⟨0, _⟩ =>
    show r.val = if a = 1 then 0 else r.val
    split
    · have := r.isLt; omega
    · rfl
  | ⟨1, _⟩ =>
    show n.val = if b = 1 then 0 else n.val
    split
    · have := n.isLt; omega
    · rfl

/-- Three `[a, b]` arrays stacked along a new last axis: entry `(r, n, k)` is the `k`-th array's entry `(r, n)`. -/
theorem stack3_rank2_apply {a b : ℕ} (g0 g1 g2 : (⟨2, ![a, b]⟩ : Shape).Idx → α)
    (hb : (⟨2, ![a, b]⟩ : Shape).BroadcastsInDim ⟨3, ![a, b, 1]⟩ (![0, 1] : Fin 2 → Fin 3))
    (hc : Shape.Concatenates [⟨3, ![a, b, 1]⟩, ⟨3, ![a, b, 1]⟩, ⟨3, ![a, b, 1]⟩] ⟨3, ![a, b, 3]⟩ (2 : Fin 3))
    (r : Fin a) (n : Fin b) (k : Fin 3) :
    concatenate ⟨3, ![a, b, 3]⟩ (2 : Fin 3) [⟨⟨3, ![a, b, 1]⟩, broadcastInDim ⟨3, ![a, b, 1]⟩ ![0, 1] hb g0⟩,
        ⟨⟨3, ![a, b, 1]⟩, broadcastInDim ⟨3, ![a, b, 1]⟩ ![0, 1] hb g1⟩, ⟨⟨3, ![a, b, 1]⟩, broadcastInDim ⟨3, ![a, b, 1]⟩ ![0, 1] hb g2⟩] hc (ix3 r n k)
      = if k.val = 0 then g0 (ix2 r n) else if k.val = 1 then g1 (ix2 r n) else g2 (ix2 r n) := by
  by_cases h0 : k.val = 0
  · rw [if_pos h0]
    refine (Cert.LibTripleJoin.concatenate_triple_apply_first (t := ⟨3, ![a, b, 3]⟩) (s₁ := ⟨3, ![a, b, 1]⟩) (s₂ := ⟨3, ![a, b, 1]⟩) (s₃ := ⟨3, ![a, b, 1]⟩) (2 : Fin 3) _ _ _ hc (ix3 r n k) rfl (ix3 r n (0 : Fin 1)) fun b' => ?_).trans
      (unit_last2_apply g0 hb r n 0)
    match b' with
    | ⟨0, _⟩ => rfl
    | ⟨1, _⟩ => rfl
    | ⟨2, _⟩ => exact h0.symm
  · rw [if_neg h0]
    by_cases h1 : k.val = 1
    · rw [if_pos h1]
      refine (Cert.LibTripleJoin.concatenate_triple_apply_second (t := ⟨3, ![a, b, 3]⟩) (s₁ := ⟨3, ![a, b, 1]⟩) (s₂ := ⟨3, ![a, b, 1]⟩) (s₃ := ⟨3, ![a, b, 1]⟩) (2 : Fin 3) _ _ _ hc (ix3 r n k) rfl rfl (ix3 r n (0 : Fin 1)) (fun b' hb' => ?_) ?_).trans
        (unit_last2_apply g1 hb r n 0)
      · match b' with
        | ⟨0, _⟩ => rfl
        | ⟨1, _⟩ => rfl
        | ⟨2, _⟩ => exact absurd rfl hb'
      · show 0 + 1 = k.val
        omega
    · rw [if_neg h1]
      have h2 : k.val = 2 := by have := k.isLt; omega
      refine (Cert.LibTripleJoin.concatenate_triple_apply_third (t := ⟨3, ![a, b, 3]⟩) (s₁ := ⟨3, ![a, b, 1]⟩) (s₂ := ⟨3, ![a, b, 1]⟩) (s₃ := ⟨3, ![a, b, 1]⟩) (2 : Fin 3) _ _ _ hc (ix3 r n k) rfl rfl rfl (ix3 r n (0 : Fin 1)) (fun b' hb' => ?_) ?_).trans
        (unit_last2_apply g2 hb r n 0)
      · match b' with
        | ⟨0, _⟩ => rfl
        | ⟨1, _⟩ => rfl
        | ⟨2, _⟩ => exact absurd rfl hb'
      · show 0 + 1 + 1 = k.val
        omega

/-! ## Rank 3 -/

/-- An `[a, b, c]` array given a trailing unit axis reads, at `(p, q, n, 0)`, the array at `(p, q, n)`. -/
theorem unit_last3_apply {a b c : ℕ} (g : (⟨3, ![a, b, c]⟩ : Shape).Idx → α)
    (hb : (⟨3, ![a, b, c]⟩ : Shape).BroadcastsInDim ⟨4, ![a, b, c, 1]⟩ (![0, 1, 2] : Fin 3 → Fin 4)) (p : Fin a) (q : Fin b) (n : Fin c) (u : Fin 1) :
    broadcastInDim ⟨4, ![a, b, c, 1]⟩ ![0, 1, 2] hb g (ix4 p q n u) = g (ix3 p q n) := by
  refine broadcastInDim_apply _ hb g (ix4 p q n u) (ix3 p q n) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show n.val = if c = 1 then 0 else n.val
    split
    · have := n.isLt; omega
    · rfl

/-- Three `[a, b, c]` arrays stacked along a new last axis: entry `(p, q, n, k)` is the `k`-th array's entry `(p, q, n)`. -/
theorem stack3_rank3_apply {a b c : ℕ} (g0 g1 g2 : (⟨3, ![a, b, c]⟩ : Shape).Idx → α)
    (hb : (⟨3, ![a, b, c]⟩ : Shape).BroadcastsInDim ⟨4, ![a, b, c, 1]⟩ (![0, 1, 2] : Fin 3 → Fin 4))
    (hc : Shape.Concatenates [⟨4, ![a, b, c, 1]⟩, ⟨4, ![a, b, c, 1]⟩, ⟨4, ![a, b, c, 1]⟩] ⟨4, ![a, b, c, 3]⟩ (3 : Fin 4))
    (p : Fin a) (q : Fin b) (n : Fin c) (k : Fin 3) :
    concatenate ⟨4, ![a, b, c, 3]⟩ (3 : Fin 4) [⟨⟨4, ![a, b, c, 1]⟩, broadcastInDim ⟨4, ![a, b, c, 1]⟩ ![0, 1, 2] hb g0⟩,
        ⟨⟨4, ![a, b, c, 1]⟩, broadcastInDim ⟨4, ![a, b, c, 1]⟩ ![0, 1, 2] hb g1⟩, ⟨⟨4, ![a, b, c, 1]⟩, broadcastInDim ⟨4, ![a, b, c, 1]⟩ ![0, 1, 2] hb g2⟩] hc (ix4 p q n k)
      = if k.val = 0 then g0 (ix3 p q n) else if k.val = 1 then g1 (ix3 p q n) else g2 (ix3 p q n) := by
  by_cases h0 : k.val = 0
  · rw [if_pos h0]
    refine (Cert.LibTripleJoin.concatenate_triple_apply_first (t := ⟨4, ![a, b, c, 3]⟩) (s₁ := ⟨4, ![a, b, c, 1]⟩) (s₂ := ⟨4, ![a, b, c, 1]⟩) (s₃ := ⟨4, ![a, b, c, 1]⟩) (3 : Fin 4) _ _ _ hc (ix4 p q n k) rfl (ix4 p q n (0 : Fin 1)) fun b' => ?_).trans
      (unit_last3_apply g0 hb p q n 0)
    match b' with
    | ⟨0, _⟩ => rfl
    | ⟨1, _⟩ => rfl
    | ⟨2, _⟩ => rfl
    | ⟨3, _⟩ => exact h0.symm
  · rw [if_neg h0]
    by_cases h1 : k.val = 1
    · rw [if_pos h1]
      refine (Cert.LibTripleJoin.concatenate_triple_apply_second (t := ⟨4, ![a, b, c, 3]⟩) (s₁ := ⟨4, ![a, b, c, 1]⟩) (s₂ := ⟨4, ![a, b, c, 1]⟩) (s₃ := ⟨4, ![a, b, c, 1]⟩) (3 : Fin 4) _ _ _ hc (ix4 p q n k) rfl rfl (ix4 p q n (0 : Fin 1)) (fun b' hb' => ?_) ?_).trans
        (unit_last3_apply g1 hb p q n 0)
      · match b' with
        | ⟨0, _⟩ => rfl
        | ⟨1, _⟩ => rfl
        | ⟨2, _⟩ => rfl
        | ⟨3, _⟩ => exact absurd rfl hb'
      · show 0 + 1 = k.val
        omega
    · rw [if_neg h1]
      have h2 : k.val = 2 := by have := k.isLt; omega
      refine (Cert.LibTripleJoin.concatenate_triple_apply_third (t := ⟨4, ![a, b, c, 3]⟩) (s₁ := ⟨4, ![a, b, c, 1]⟩) (s₂ := ⟨4, ![a, b, c, 1]⟩) (s₃ := ⟨4, ![a, b, c, 1]⟩) (3 : Fin 4) _ _ _ hc (ix4 p q n k) rfl rfl rfl (ix4 p q n (0 : Fin 1)) (fun b' hb' => ?_) ?_).trans
        (unit_last3_apply g2 hb p q n 0)
      · match b' with
        | ⟨0, _⟩ => rfl
        | ⟨1, _⟩ => rfl
        | ⟨2, _⟩ => rfl
        | ⟨3, _⟩ => exact absurd rfl hb'
      · show 0 + 1 + 1 = k.val
        omega

end Cert.LibStackThree

end
-- ==== Proof.KernelTail.lean ====
/-
  The kernel's result, index by index: entry (b, r, k) of the [32, 6144, 3] result is the k-th of the cosine, the
  Euclidean distance and the L1 distance — in the body's spelling — of the two vectors at (b, r / 2048, r mod 2048).

  The lines after the launch give each [96, 2048] result a trailing unit axis, join the three along it and merge the
  result's rows 6144 = 3 · 2048 to a batch: row (b, r) is row 3b + r / 2048 of a launch result, column r mod 2048.
  The launch read the arguments recast to [96, 300, 2048], whose row 3b + p is the argument's (b, p): so the sums over
  column (3b + p, ·, n) of the recast arguments are the sums over the vector (b, p, ·, n).
-/
import proofs.«138748_j55851754717413_2_alg».proof.Proof.KernelArrays
import proofs.«138748_j55851754717413_2_alg».proof.Proof.Spec
import proofs.«138748_j55851754717413_2_alg».proof.Proof.LibStackThree
import Idealize.ShloMosaic.Lib.StableHlo.Run

set_option maxRecDepth 16384

noncomputable section

namespace Cert.KernelIdeal.Tail

open Cert.KernelIdeal Cert.KernelIdeal.Gen Cert.KernelIdeal.Hand Cert.KernelIdeal.Arrays Cert.Similarity
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ) (ρ : Dev nD → PrngReg)

/-! ## The recast arguments -/

/-- The region finds the first argument recast. -/
theorem V_main_v0 (c : Dev nD) :
    (V m c main_v0 : S96x300x2048.Idx → EReal) = shapeCast S96x300x2048 (m ((c : Thread nD τ).loc main_arg0)) shapeCasts_S32x3x300x2048_S96x300x2048 := by
  show StableHlo.after hostOps0 (fun b => m (c, b)) (Proc.devRef .tc main_v0) = _
  after_results
  rfl
/-- And the second. -/
theorem V_main_v1 (c : Dev nD) :
    (V m c main_v1 : S96x300x2048.Idx → EReal) = shapeCast S96x300x2048 (m ((c : Thread nD τ).loc main_arg1)) shapeCasts_S32x3x300x2048_S96x300x2048 := by
  show StableHlo.after hostOps0 (fun b => m (c, b)) (Proc.devRef .tc main_v1) = _
  after_results
  rfl

/-- Row 3b + p of a recast argument is the argument's (b, p). -/
theorem recast_apply (X : S32x3x300x2048.Idx → EReal) (r : Fin 96) (d : Fin 300) (n : Fin 2048) (b : Fin 32) (p : Fin 3)
    (hr : r.val = b.val * 3 + p.val) :
    shapeCast S96x300x2048 X shapeCasts_S32x3x300x2048_S96x300x2048 (ix3 r d n) = X (ix4 b p d n) :=
  shapeCast_apply X _ (ix3 r d n) (ix4 b p d n) (by
    rw [Shape.rowMajor_val_four, Shape.rowMajor_val_three]
    show ((b.val * 3 + p.val) * 300 + d.val) * 2048 + n.val = (r.val * 300 + d.val) * 2048 + n.val
    rw [hr])

theorem row_ix2 (r : Fin 96) (n : Fin 2048) : row (ix2 r n) = r := Fin.ext rfl
theorem col_ix2 (r : Fin 96) (n : Fin 2048) : col (ix2 r n) = n := Fin.ext rfl

section Recast

variable (X Y : S32x3x300x2048.Idx → EReal) (r : Fin 96) (n : Fin 2048) (b : Fin 32) (p : Fin 3) (hr : r.val = b.val * 3 + p.val)

include hr in
/-- The launch's cosine at (3b + p, n), of the recast arguments, is the cosine of the vectors at (b, p, n). -/
theorem Gcos_recast : Gcos (shapeCast S96x300x2048 X shapeCasts_S32x3x300x2048_S96x300x2048) (shapeCast S96x300x2048 Y shapeCasts_S32x3x300x2048_S96x300x2048) (ix2 r n)
    = cosK X Y b p n := by
  have eX : ∀ d, shapeCast S96x300x2048 X shapeCasts_S32x3x300x2048_S96x300x2048 (ix3 r d n) = X (ix4 b p d n) := fun d => recast_apply X r d n b p hr
  have eY : ∀ d, shapeCast S96x300x2048 Y shapeCasts_S32x3x300x2048_S96x300x2048 (ix3 r d n) = Y (ix4 b p d n) := fun d => recast_apply Y r d n b p hr
  simp only [Gcos, cosK, adot, asq, dot, sqn, row_ix2, col_ix2, eX, eY]

include hr in
theorem Gl2_recast : Gl2 (shapeCast S96x300x2048 X shapeCasts_S32x3x300x2048_S96x300x2048) (shapeCast S96x300x2048 Y shapeCasts_S32x3x300x2048_S96x300x2048) (ix2 r n)
    = l2K X Y b p n := by
  have eX : ∀ d, shapeCast S96x300x2048 X shapeCasts_S32x3x300x2048_S96x300x2048 (ix3 r d n) = X (ix4 b p d n) := fun d => recast_apply X r d n b p hr
  have eY : ∀ d, shapeCast S96x300x2048 Y shapeCasts_S32x3x300x2048_S96x300x2048 (ix3 r d n) = Y (ix4 b p d n) := fun d => recast_apply Y r d n b p hr
  simp only [Gl2, l2K, adot, asq, dot, sqn, row_ix2, col_ix2, eX, eY]

include hr in
theorem Gl1_recast : Gl1 (shapeCast S96x300x2048 X shapeCasts_S32x3x300x2048_S96x300x2048) (shapeCast S96x300x2048 Y shapeCasts_S32x3x300x2048_S96x300x2048) (ix2 r n)
    = l1 X Y b p n := by
  have eX : ∀ d, shapeCast S96x300x2048 X shapeCasts_S32x3x300x2048_S96x300x2048 (ix3 r d n) = X (ix4 b p d n) := fun d => recast_apply X r d n b p hr
  have eY : ∀ d, shapeCast S96x300x2048 Y shapeCasts_S32x3x300x2048_S96x300x2048 (ix3 r d n) = Y (ix4 b p d n) := fun d => recast_apply Y r d n b p hr
  simp only [Gl1, l1, al1, row_ix2, col_ix2, eX, eY]

end Recast

/-! ## The lines after the launch -/

/-- The buffers as the launch leaves them: its five arrays at their final contents, the rest as the region found them. -/
abbrev W (c : Dev nD) : Valuation τ sig (Elt Ideal) :=
  Pipeline.withArrays (cfgs 0).spec c (V0 m c) fun w => (dats m 0 c).arrAt w (cfgs 0).N

/-- The result buffer after the five lines: the three launch results stacked along a new last axis and recast. -/
theorem tail_eq (c : Dev nD) :
    Pipeline.afterTail₀ cfgs (dats m) 0 (V0 m) [hostOps1] c main_v7
      = shapeCast S32x6144x3 (concatenate S96x2048x3 2
          [⟨S96x2048x1, broadcastInDim S96x2048x1 ![0, 1] bcast_S96x2048_S96x2048x1_0_1 (W m c (Proc.devRef .tc main_v2_0))⟩,
           ⟨S96x2048x1, broadcastInDim S96x2048x1 ![0, 1] bcast_S96x2048_S96x2048x1_0_1 (W m c (Proc.devRef .tc main_v2_1))⟩,
           ⟨S96x2048x1, broadcastInDim S96x2048x1 ![0, 1] bcast_S96x2048_S96x2048x1_0_1 (W m c (Proc.devRef .tc main_v2_2))⟩]
          concatenates_S96x2048x1_S96x2048x1_S96x2048x1_S96x2048x3_d2) shapeCasts_S96x2048x3_S32x6144x3 := by
  unfold Pipeline.afterTail₀
  show StableHlo.after hostOps1 _ (Proc.devRef .tc main_v7) = _
  after_results <;> rfl

/-- The launch's three results at their final contents, as functions of the arguments. -/
theorem W_v2_0 (c : Dev nD) : (W m c (Proc.devRef .tc main_v2_0) : S96x2048.Idx → EReal)
    = Gcos (shapeCast S96x300x2048 (m ((c : Thread nD τ).loc main_arg0)) shapeCasts_S32x3x300x2048_S96x300x2048) (shapeCast S96x300x2048 (m ((c : Thread nD τ).loc main_arg1)) shapeCasts_S32x3x300x2048_S96x300x2048) := by
  refine ((Pipeline.withArrays_arr spec0 launch0.win.arr_inj c _ _ 2).trans (final2 m c)).trans ?_
  rw [V_main_v0, V_main_v1]
theorem W_v2_1 (c : Dev nD) : (W m c (Proc.devRef .tc main_v2_1) : S96x2048.Idx → EReal)
    = Gl2 (shapeCast S96x300x2048 (m ((c : Thread nD τ).loc main_arg0)) shapeCasts_S32x3x300x2048_S96x300x2048) (shapeCast S96x300x2048 (m ((c : Thread nD τ).loc main_arg1)) shapeCasts_S32x3x300x2048_S96x300x2048) := by
  refine ((Pipeline.withArrays_arr spec0 launch0.win.arr_inj c _ _ 3).trans (final3 m c)).trans ?_
  rw [V_main_v0, V_main_v1]
theorem W_v2_2 (c : Dev nD) : (W m c (Proc.devRef .tc main_v2_2) : S96x2048.Idx → EReal)
    = Gl1 (shapeCast S96x300x2048 (m ((c : Thread nD τ).loc main_arg0)) shapeCasts_S32x3x300x2048_S96x300x2048) (shapeCast S96x300x2048 (m ((c : Thread nD τ).loc main_arg1)) shapeCasts_S32x3x300x2048_S96x300x2048) := by
  refine ((Pipeline.withArrays_arr spec0 launch0.win.arr_inj c _ _ 4).trans (final4 m c)).trans ?_
  rw [V_main_v0, V_main_v1]

/-- Three [96, 2048] arrays stacked and recast to [32, 6144, 3], at (b, r, k): the k-th array at (3b + r / 2048, r mod 2048). -/
theorem stacked_apply (g0 g1 g2 : S96x2048.Idx → EReal) (i : S32x6144x3.Idx) (r : Fin 96) (hr : r.val = (batchOf i).val * 3 + (poolOf i).val) :
    shapeCast S32x6144x3 (concatenate S96x2048x3 2
          [⟨S96x2048x1, broadcastInDim S96x2048x1 ![0, 1] bcast_S96x2048_S96x2048x1_0_1 g0⟩,
           ⟨S96x2048x1, broadcastInDim S96x2048x1 ![0, 1] bcast_S96x2048_S96x2048x1_0_1 g1⟩,
           ⟨S96x2048x1, broadcastInDim S96x2048x1 ![0, 1] bcast_S96x2048_S96x2048x1_0_1 g2⟩]
          concatenates_S96x2048x1_S96x2048x1_S96x2048x1_S96x2048x3_d2) shapeCasts_S96x2048x3_S32x6144x3 i
      = pick i (g0 (ix2 r (posOf i))) (g1 (ix2 r (posOf i))) (g2 (ix2 r (posOf i))) := by
  have h0 : (i 0).val < 32 := (i 0).isLt
  have h1 : (i 1).val < 6144 := (i 1).isLt
  have h2 : (i 2).val < 3 := (i 2).isLt
  have hb : (batchOf i).val = (i 0).val := rfl
  have hp : (poolOf i).val = (i 1).val / 2048 := rfl
  have hn : (posOf i).val = (i 1).val % 2048 := rfl
  refine (shapeCast_apply _ shapeCasts_S96x2048x3_S32x6144x3 i (ix3 r (posOf i) (⟨(i 2).val, h2⟩ : Fin 3)) (by
    rw [Shape.rowMajor_val_three, Shape.rowMajor_val_three]
    show (r.val * 2048 + (posOf i).val) * 3 + (i 2).val = ((i 0).val * 6144 + (i 1).val) * 3 + (i 2).val
    omega)).trans ?_
  exact Cert.LibStackThree.stack3_rank2_apply g0 g1 g2 bcast_S96x2048_S96x2048x1_0_1 concatenates_S96x2048x1_S96x2048x1_S96x2048x1_S96x2048x3_d2 r (posOf i) ⟨(i 2).val, h2⟩

/-- The result buffer after the run is the specification's first spelling of the arguments. -/
theorem result_eq (c : Dev nD) :
    Pipeline.afterTail₀ cfgs (dats m) 0 (V0 m) [hostOps1] c main_v7
      = outK (m ((c : Thread nD τ).loc main_arg0)) (m ((c : Thread nD τ).loc main_arg1)) := by
  rw [tail_eq, W_v2_0, W_v2_1, W_v2_2]
  funext i
  have h0 : (i 0).val < 32 := (i 0).isLt
  have h1 : (i 1).val < 6144 := (i 1).isLt
  have hr : (i 0).val * 3 + (i 1).val / 2048 < 96 := by omega
  refine (stacked_apply _ _ _ i ⟨(i 0).val * 3 + (i 1).val / 2048, hr⟩ rfl).trans ?_
  rw [Gcos_recast _ _ _ _ (batchOf i) (poolOf i) rfl, Gl2_recast _ _ _ _ (batchOf i) (poolOf i) rfl, Gl1_recast _ _ _ _ (batchOf i) (poolOf i) rfl]
  rfl

/-! ## The run -/

/-- From any memory with zero counters every weakly fair execution of @main terminates with the result buffer at the
    specification's first spelling of the two arguments, and the arguments as launched. -/
theorem run : θ_run defs (onTc (τ := τ) (main (F := Ideal))) ⟨m, fun _ => 0, ρ⟩ fun r => ∀ c : Dev nD,
      r.2.mem ((c.tc : Thread nD τ).loc main_v7) = outK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Tail

end
-- ==== Proof.RefValue.lean ====
/-
  The reference, read index by index: its result at (b, r, k) is the k-th of the cosine, the Euclidean distance and
  the L1 distance — in the reference's spelling — of the two vectors at (b, r / 2048, r mod 2048).

  The reference swaps the two last axes and sums over the new last one, so its sum at (b, p, n) over k reads the
  argument at (b, p, k, n); the four sums are the dot product, the two squared norms, the squared distance and the L1
  distance; they start from the zero word, which is 0. The three [32, 3, 2048] results are stacked along a new last
  axis and the two middle axes merged.
-/
import proofs.«138748_j55851754717413_2_alg».proof.Proof.Gen.ReferenceIdeal.Read
import proofs.«138748_j55851754717413_2_alg».proof.Proof.Spec
import proofs.«138748_j55851754717413_2_alg».proof.Proof.LibStackThree

noncomputable section

namespace Cert.ReferenceIdeal.RefValue

open Cert.ReferenceIdeal Cert.ReferenceIdeal.Gen Cert.ReferenceIdeal.Read Cert.Similarity
open Idealize.ShloMosaic Idealize.ShloMosaic.ValueIdx
open scoped BigOperators

variable (X Y : (⟨S32x3x300x2048, .f32⟩ : BufTy).Contents (Elt Ideal))

/-! ## Where each sum reads the arguments -/

theorem e0_3 (b : Fin 32) (p : Fin 3) (n : Fin 2048) (d : Fin 300) : idx_main_v0 (idx_main_v3 (ix3 b p n) d) = ix4 b p d n :=
  funext fun a => Fin.ext (by match a with | ⟨0, _⟩ => rfl | ⟨1, _⟩ => rfl | ⟨2, _⟩ => rfl | ⟨3, _⟩ => rfl)
theorem e1_3 (b : Fin 32) (p : Fin 3) (n : Fin 2048) (d : Fin 300) : idx_main_v1 (idx_main_v3 (ix3 b p n) d) = ix4 b p d n :=
  funext fun a => Fin.ext (by match a with | ⟨0, _⟩ => rfl | ⟨1, _⟩ => rfl | ⟨2, _⟩ => rfl | ⟨3, _⟩ => rfl)
theorem e0_5 (b : Fin 32) (p : Fin 3) (n : Fin 2048) (d : Fin 300) : idx_main_v0 (idx_main_v5 (ix3 b p n) d) = ix4 b p d n :=
  funext fun a => Fin.ext (by match a with | ⟨0, _⟩ => rfl | ⟨1, _⟩ => rfl | ⟨2, _⟩ => rfl | ⟨3, _⟩ => rfl)
theorem e1_8 (b : Fin 32) (p : Fin 3) (n : Fin 2048) (d : Fin 300) : idx_main_v1 (idx_main_v8 (ix3 b p n) d) = ix4 b p d n :=
  funext fun a => Fin.ext (by match a with | ⟨0, _⟩ => rfl | ⟨1, _⟩ => rfl | ⟨2, _⟩ => rfl | ⟨3, _⟩ => rfl)
theorem e0_14 (b : Fin 32) (p : Fin 3) (n : Fin 2048) (d : Fin 300) : idx_main_v0 (idx_main_v14 (ix3 b p n) d) = ix4 b p d n :=
  funext fun a => Fin.ext (by match a with | ⟨0, _⟩ => rfl | ⟨1, _⟩ => rfl | ⟨2, _⟩ => rfl | ⟨3, _⟩ => rfl)
theorem e1_14 (b : Fin 32) (p : Fin 3) (n : Fin 2048) (d : Fin 300) : idx_main_v1 (idx_main_v14 (ix3 b p n) d) = ix4 b p d n :=
  funext fun a => Fin.ext (by match a with | ⟨0, _⟩ => rfl | ⟨1, _⟩ => rfl | ⟨2, _⟩ => rfl | ⟨3, _⟩ => rfl)
theorem e0_17 (b : Fin 32) (p : Fin 3) (n : Fin 2048) (d : Fin 300) : idx_main_v0 (idx_main_v17 (ix3 b p n) d) = ix4 b p d n :=
  funext fun a => Fin.ext (by match a with | ⟨0, _⟩ => rfl | ⟨1, _⟩ => rfl | ⟨2, _⟩ => rfl | ⟨3, _⟩ => rfl)
theorem e1_17 (b : Fin 32) (p : Fin 3) (n : Fin 2048) (d : Fin 300) : idx_main_v1 (idx_main_v17 (ix3 b p n) d) = ix4 b p d n :=
  funext fun a => Fin.ext (by match a with | ⟨0, _⟩ => rfl | ⟨1, _⟩ => rfl | ⟨2, _⟩ => rfl | ⟨3, _⟩ => rfl)

/-! ## The four sums -/

theorem v3_at (b : Fin 32) (p : Fin 3) (n : Fin 2048) : val_main_v3 (F := Ideal) X Y (ix3 b p n) = dot X Y b p n := by
  rw [val_main_v3_apply, val_main_cst_apply]
  show Ideal.ofBits .f32 0x00000000#32 + _ = _
  rw [Ideal.ofBits_zero_f32, zero_add]
  unfold dot
  refine Finset.sum_congr rfl fun d _ => ?_
  rw [val_main_v2_apply, val_main_v0_apply, val_main_v1_apply, e0_3, e1_3]
  rfl

theorem v5_at (b : Fin 32) (p : Fin 3) (n : Fin 2048) : val_main_v5 (F := Ideal) X (ix3 b p n) = sqn X b p n := by
  rw [val_main_v5_apply, val_main_cst_0_apply]
  show Ideal.ofBits .f32 0x00000000#32 + _ = _
  rw [Ideal.ofBits_zero_f32, zero_add]
  unfold sqn
  refine Finset.sum_congr rfl fun d _ => ?_
  rw [val_main_v4_apply, val_main_v0_apply, e0_5]
  rfl

theorem v8_at (b : Fin 32) (p : Fin 3) (n : Fin 2048) : val_main_v8 (F := Ideal) Y (ix3 b p n) = sqn Y b p n := by
  rw [val_main_v8_apply, val_main_cst_1_apply]
  show Ideal.ofBits .f32 0x00000000#32 + _ = _
  rw [Ideal.ofBits_zero_f32, zero_add]
  unfold sqn
  refine Finset.sum_congr rfl fun d _ => ?_
  rw [val_main_v7_apply, val_main_v1_apply, e1_8]
  rfl

theorem v14_at (b : Fin 32) (p : Fin 3) (n : Fin 2048) : val_main_v14 (F := Ideal) X Y (ix3 b p n) = dsq X Y b p n := by
  rw [val_main_v14_apply, val_main_cst_2_apply]
  show Ideal.ofBits .f32 0x00000000#32 + _ = _
  rw [Ideal.ofBits_zero_f32, zero_add]
  unfold dsq
  refine Finset.sum_congr rfl fun d _ => ?_
  rw [val_main_v13_apply, val_main_v12_apply, val_main_v0_apply, val_main_v1_apply, e0_14, e1_14]
  rfl

theorem v17_at (b : Fin 32) (p : Fin 3) (n : Fin 2048) : val_main_v17 (F := Ideal) X Y (ix3 b p n) = l1 X Y b p n := by
  rw [val_main_v17_apply, val_main_cst_3_apply]
  show Ideal.ofBits .f32 0x00000000#32 + _ = _
  rw [Ideal.ofBits_zero_f32, zero_add]
  unfold l1
  refine Finset.sum_congr rfl fun d _ => ?_
  rw [val_main_v16_apply, val_main_v12_apply, val_main_v0_apply, val_main_v1_apply, e0_17, e1_17]
  rfl

/-! ## The three results -/

theorem v11_at (b : Fin 32) (p : Fin 3) (n : Fin 2048) : val_main_v11 (F := Ideal) X Y (ix3 b p n) = cosR X Y b p n := by
  rw [val_main_v11_apply, val_main_v10_apply, val_main_v6_apply, val_main_v9_apply, v3_at, v5_at, v8_at]
  rfl

theorem v15_at (b : Fin 32) (p : Fin 3) (n : Fin 2048) : val_main_v15 (F := Ideal) X Y (ix3 b p n) = l2R X Y b p n := by
  rw [val_main_v15_apply, v14_at]
  rfl

/-- The stack of the three at (b, p, n, k). -/
theorem v21_at (b : Fin 32) (p : Fin 3) (n : Fin 2048) (k : Fin 3) :
    val_main_v21 (F := Ideal) X Y (ix4 b p n k)
      = if k.val = 0 then val_main_v11 (F := Ideal) X Y (ix3 b p n) else if k.val = 1 then val_main_v15 (F := Ideal) X Y (ix3 b p n)
        else val_main_v17 (F := Ideal) X Y (ix3 b p n) :=
  Cert.LibStackThree.stack3_rank3_apply (val_main_v11 (F := Ideal) X Y) (val_main_v15 (F := Ideal) X Y) (val_main_v17 (F := Ideal) X Y)
    bcast_S32x3x2048_S32x3x2048x1_0_1_2 concatenates_S32x3x2048x1_S32x3x2048x1_S32x3x2048x1_S32x3x2048x3_d3 b p n k

/-! ## The reference's result is the specification's second spelling -/

theorem result_eq : val_main_v22 (F := Ideal) X Y = outR X Y := by
  funext i
  rw [val_main_v22_apply]
  have e : idx_main_v22 i = ix4 (batchOf i) (poolOf i) (posOf i) (⟨(i 2).val, (i 2).isLt⟩ : Fin 3) := funext fun a => Fin.ext (by
    have h0 : (i 0).val < 32 := (i 0).isLt
    have h1 : (i 1).val < 6144 := (i 1).isLt
    have h2 : (i 2).val < 3 := (i 2).isLt
    match a with
    | ⟨0, _⟩ => show (((i 0).val * 6144 + (i 1).val) * 3 + (i 2).val) / 18432 = (i 0).val; omega
    | ⟨1, _⟩ => show (((i 0).val * 6144 + (i 1).val) * 3 + (i 2).val) / 6144 % 3 = (i 1).val / 2048; omega
    | ⟨2, _⟩ => show (((i 0).val * 6144 + (i 1).val) * 3 + (i 2).val) / 3 % 2048 = (i 1).val % 2048; omega
    | ⟨3, _⟩ => show (((i 0).val * 6144 + (i 1).val) * 3 + (i 2).val) % 3 = (i 2).val; omega)
  rw [e, v21_at, v11_at, v15_at, v17_at]
  rfl

end Cert.ReferenceIdeal.RefValue

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.PreFacts.lean ====
/-
  What the precondition says at the extended reals: every entry of both arguments is a real number, and no length-300
  vector of either argument is all zero — the sum of its entries' squares is positive.

  The precondition is a conjunction of four bits: |x| < +∞ at every entry of each argument (a conjunction over all
  entries), and Σ_d x(b, p, d, n)² > 0 at every (b, p, n) for each argument (a sum over the third axis, compared with
  0, and a conjunction over all (b, p, n)). A conjunction that is 1 had a 1 at every index; a comparison bit that is 1
  says the comparison holds; the sum over the third axis is the starting value 0 plus the sum over its 300
  coordinates.
-/
import proofs.«138748_j55851754717413_2_alg».proof.Pre_finite_inputs
import proofs.«138748_j55851754717413_2_alg».proof.Proof.Gen.Pre_finite_inputs
import proofs.«138748_j55851754717413_2_alg».proof.Proof.LibSums
import proofs.«138748_j55851754717413_2_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Idealize.ShloMosaic Idealize.ShloMosaic.ValueIdx Cert.Pre_finite_inputs Cert.Pre_finite_inputs.Gen Cert.Similarity
open scoped BigOperators

instance : Subsingleton S_.Idx := ⟨fun a b => funext fun d => d.elim0⟩

/-- The host's sum over the third axis of a [32, 3, 300, 2048] array, at (b, p, n): the starting value plus the sum
    over the 300 coordinates d of the array at (b, p, d, n). -/
theorem sum_axis2_apply (y0 : S32x3x300x2048.Idx → EReal) (init : S_.Idx → EReal) (b : Fin 32) (p : Fin 3) (n : Fin 2048) :
    Host.reduceAdd (F := Ideal) (φ := .f32) y0 init reducesTo_S32x3x300x2048_S32x3x2048_d2 h_S_ (ix3 b p n)
      = init (Shape.Idx.first h_S_) + ∑ d : Fin 300, y0 (ix4 b p d n) := by
  simp only [Host.reduceAdd, Ideal.hostReduceAdd_def]
  rw [Ideal.hostReduceAdd_single reducesTo_S32x3x300x2048_S32x3x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

/-- A vector whose "sum of squares above zero" bit is 1 has a positive sum of squares. -/
theorem sq_pos_of_bit (X : FVec Ideal S32x3x300x2048 .f32) (b : Fin 32) (p : Fin 3) (n : Fin 2048)
    (e : cmpf .ogt (Host.reduceAdd (F := Ideal) (mulf X X) (constant S_ .f32 0x00000000#32) reducesTo_S32x3x300x2048_S32x3x2048_d2 h_S_)
          (broadcastInDim S32x3x2048 ![] bcast_S_S32x3x2048 (constant S_ .f32 0x00000000#32)) (ix3 b p n) = 1#1) :
    0 < sqn X b p n := by
  have h : Ideal.ofBits .f32 0x00000000#32
      < Host.reduceAdd (F := Ideal) (φ := .f32) (mulf X X) (constant S_ .f32 0x00000000#32) reducesTo_S32x3x300x2048_S32x3x2048_d2 h_S_ (ix3 b p n) :=
    Cert.LibSums.of_ofBool_decide e
  rw [sum_axis2_apply] at h
  have hz : (constant (F := Ideal) S_ .f32 0x00000000#32) (Shape.Idx.first h_S_) = (0 : EReal) := Ideal.ofBits_zero_f32
  rw [hz, zero_add, Ideal.ofBits_zero_f32] at h
  exact h

/-- The precondition's four facts. -/
theorem facts (X Y : FVec Ideal S32x3x300x2048 .f32) (h : fn (F := Ideal) X Y = fun _ => 1#1) :
    (∀ i, ∃ r : ℝ, X i = r) ∧ (∀ i, ∃ r : ℝ, Y i = r) ∧ (∀ b p n, 0 < sqn X b p n) ∧ (∀ b p n, 0 < sqn Y b p n) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun b p n => ?_, fun b p n => ?_⟩
  · exact Cert.LibSums.real_of_finite_bit (X i) (Host.reduce_andi_all _ _ _ _ _ h1 i)
  · exact Cert.LibSums.real_of_finite_bit (Y i) (Host.reduce_andi_all _ _ _ _ _ h2 i)
  · exact sq_pos_of_bit X b p n (Host.reduce_andi_all _ _ _ _ _ h3 (ix3 b p n))
  · exact sq_pos_of_bit Y b p n (Host.reduce_andi_all _ _ _ _ _ h4 (ix3 b p n))

end Cert.Pre_finite_inputs.Decode

end
-- ==== Proof.lean ====
/-
  Cosine similarity, Euclidean distance and L1 distance of the length-300 vectors of two [32, 3, 300, 2048] arrays,
  stacked into [32, 6144, 3]: the tiled kernel against the plain reference, on the extended reals.

  The two programs spell the cosine and the Euclidean distance differently — dot · (|x|²·|y|²)^(-1/2) against
  dot / (√|x|² · √|y|²), and √(|x|² + |y|² − 2·dot) against √(Σ (x−y)²) — and agree where every entry is a real number
  and no vector is zero, which is what the precondition says: finiteness gives the expansion of the square, and a
  positive |x|², |y|² the identity of the two cosines (at a zero vector the reference divides 0 by 0).

  The three frames: each kernel program's run around its launch, and the reference's generated run with the result
  dropped. The idealization rewrote nothing. The algebraic claim: the kernel's run ends with the result at the
  specification's first spelling of the arguments, the reference's at the second, and under the precondition the two
  are one function.
-/
import proofs.«138748_j55851754717413_2_alg».proof.Defs
import proofs.«138748_j55851754717413_2_alg».proof.Proof.Gen.Kernel
import proofs.«138748_j55851754717413_2_alg».proof.Proof.Gen.KernelIdeal
import proofs.«138748_j55851754717413_2_alg».proof.Proof.Gen.ReferenceIdeal
import proofs.«138748_j55851754717413_2_alg».proof.Proof.Gen.ReferenceIdeal.Run
import proofs.«138748_j55851754717413_2_alg».proof.Proof.Gen.ReferenceIdeal.Read
import proofs.«138748_j55851754717413_2_alg».proof.Proof.Gen.Pre_finite_inputs
import proofs.«138748_j55851754717413_2_alg».proof.Proof.FrameBits
import proofs.«138748_j55851754717413_2_alg».proof.Proof.KernelTail
import proofs.«138748_j55851754717413_2_alg».proof.Proof.RefValue
import proofs.«138748_j55851754717413_2_alg».proof.Proof.PreFacts
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host lines only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same [32, 6144, 3] result: the kernel's is
    the first spelling of the three distances, the reference's the second, and on real entries with no zero vector
    they are one function. -/
theorem algebraic : Cert.algebraic_KernelIdeal_ReferenceIdeal := by
  intro m ρ m' ρ' hpre hagree
  refine ⟨fun c => Cert.Similarity.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]
  obtain ⟨hX, hY, hx0, hy0⟩ := Cert.Pre_finite_inputs.Decode.facts _ _ (hpre c)
  exact (Cert.Similarity.outK_eq_outR _ _ hX hY hx0 hy0).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
